-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x512 : Shape := ⟨2, ![256, 512]⟩
abbrev S512 : Shape := ⟨1, ![512]⟩
abbrev S512x512 : Shape := ⟨2, ![512, 512]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S512 .f32) (main_arg6 : FVec F S512 .f32) (main_arg7 : FVec F S512x512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S800000 .f32) (main_arg3 : FVec F S256x512 .f32) (main_arg4 : FVec F S512 .f32) (main_arg5 : FVec F S512 .f32) (main_arg6 : FVec F S512 .f32) (main_arg7 : FVec F S512x512 .f32) (main_arg8 : FVec F S512 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x512 : Shape := ⟨2, ![256, 512]⟩
abbrev S512 : Shape := ⟨1, ![512]⟩
abbrev S512x512 : Shape := ⟨2, ![512, 512]⟩
abbrev S1x800000 : Shape := ⟨2, ![1, 800000]⟩
abbrev S800000x1 : Shape := ⟨2, ![800000, 1]⟩
abbrev S_ : Shape := ⟨0, ![]⟩
abbrev S800000x256 : Shape := ⟨2, ![800000, 256]⟩
abbrev S1x512 : Shape := ⟨2, ![1, 512]⟩
abbrev S50000x512 : Shape := ⟨2, ![50000, 512]⟩
abbrev S200x512 : Shape := ⟨2, ![200, 512]⟩
abbrev S2000x256 : Shape := ⟨2, ![2000, 256]⟩
abbrev S2000x512 : Shape := ⟨2, ![2000, 512]⟩
abbrev S8x512 : Shape := ⟨2, ![8, 512]⟩
abbrev S7x512 : Shape := ⟨2, ![7, 512]⟩

abbrev nBuf : Space → Nat
  | .hbm => 53
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S256x512, .bf16⟩
  | .hbm, ⟨30, _⟩ => ⟨S512x512, .bf16⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S50000x512, .bf16⟩
  | .hbm, ⟨36, _⟩ => ⟨S200x512, .f32⟩
  | .hbm, ⟨37, _⟩ => ⟨S200x512, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S_, .f32⟩
  | .hbm, ⟨42, _⟩ => ⟨S1x512, .f32⟩
  | .hbm, ⟨43, _⟩ => ⟨S1x512, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S50000x512, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x512, .bf16⟩
  | .local _ .vmem, ⟨5, _⟩ => ⟨S1x512, .f32⟩
  | .local _ .vmem, ⟨6, _⟩ => ⟨S2000x512, .bf16⟩
  | .local _ .vmem, ⟨7, _⟩ => ⟨S2000x512, .bf16⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S2000x512, .bf16⟩
  | .local _ .vmem, ⟨13, _⟩ => ⟨S2000x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S1x512, .f32⟩
  | .local _ .vmem, ⟨20, _⟩ => ⟨S2000x512, .f32⟩
  | .local _ .vmem, ⟨21, _⟩ => ⟨S2000x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bitsLt_bf16_f32 : FTy.bits .bf16 < FTy.bits .f32
  shapeCasts_S512_S1x512 : S512.ShapeCasts S1x512
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  packedbf16_S2000x512_S2000x512_0_0 : (Rect.unit (s := S2000x512) ![0, 0] S2000x512.size inb_S2000x512_S2000x512_0_0).PackedRows (EltTy.packing .bf16)
  reduces_S2000x512_S512 : S2000x512.Reduces [0] S512
  concatenates_S1x512_S7x512_S8x512_d0 : Shape.Concatenates [S1x512, S7x512] S8x512 0
  inb_S8x512_S8x512_0_0 : ∀ a, (![0, 0] : Fin 2 → Nat) a + S8x512.size a ≤ S8x512.size a
  h_S8x512 : 0 < S8x512.numel
  reducesTo_S200x512_S512_d0 : S200x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x512_S2000x512_1_0_0_1_n_n_wf : DotDims.WF S2000x256 S256x512 S2000x512 [1] [0] [0] [1] [] []
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S50000x512.size a
  hwx0_4 : ∀ i : grid0.Coords, EltTy.bits .bf16 = 32 ∨ (Rect.block (s := S50000x512) S2000x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S200x512.size a
  hwx0_5 : ∀ i : grid0.Coords, EltTy.bits .f32 = 32 ∨ (Rect.block (s := S200x512) S8x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512.size a ≤ S200x512.size a
  hwx0_6 : ∀ i : grid0.Coords, EltTy.bits .f32 = 32 ∨ (Rect.block (s := S200x512) S8x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .bf16 = 32 ∨ (Rect.block (s := S50000x512) S2000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x512.size a ≤ S50000x512.size a
  hwx1_7 : ∀ i : grid1.Coords, EltTy.bits .f32 = 32 ∨ (Rect.block (s := S50000x512) S2000x512.size (cc1_transform_7 i) (hinb1_7 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23_0) S2000x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23_1) S8x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_2) S8x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23_0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S2000x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x512 : Shape := ⟨2, ![256, 512]⟩
abbrev S512 : Shape := ⟨1, ![512]⟩
abbrev S512x512 : Shape := ⟨2, ![512, 512]⟩
abbrev S1x800000 : Shape := ⟨2, ![1, 800000]⟩
abbrev S800000x1 : Shape := ⟨2, ![800000, 1]⟩
abbrev S_ : Shape := ⟨0, ![]⟩
abbrev S800000x256 : Shape := ⟨2, ![800000, 256]⟩
abbrev S50000x512 : Shape := ⟨2, ![50000, 512]⟩
abbrev S1x512 : Shape := ⟨2, ![1, 512]⟩

abbrev nBuf : Space → Nat
  | .hbm => 88
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S_, .f32⟩
  | .hbm, ⟨30, _⟩ => ⟨S50000x256, .f32⟩
  | .hbm, ⟨31, _⟩ => ⟨S50000x256, .f32⟩
  | .hbm, ⟨32, _⟩ => ⟨S50000x256, .f32⟩
  | .hbm, ⟨33, _⟩ => ⟨S50000x512, .f32⟩
  | .hbm, ⟨34, _⟩ => ⟨S1x512, .f32⟩
  | .hbm, ⟨35, _⟩ => ⟨S50000x512, .f32⟩
  | .hbm, ⟨36, _⟩ => ⟨S50000x512, .f32⟩
  | .hbm, ⟨37, _⟩ => ⟨S_, .f32⟩
  | .hbm, ⟨38, _⟩ => ⟨S512, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S_, .i32⟩
  | .hbm, ⟨43, _⟩ => ⟨S_, .f32⟩
  | .hbm, ⟨44, _⟩ => ⟨S512, .f32⟩
  | .hbm, ⟨45, _⟩ => ⟨S1x512, .f32⟩
  | .hbm, ⟨46, _⟩ => ⟨S_, .f32⟩
  | .hbm, ⟨47, _⟩ => ⟨S1x512, .f32⟩
  | .hbm, ⟨48, _⟩ => ⟨S1x512, .f32⟩
  | .hbm, ⟨49, _⟩ => ⟨S50000x512, .f32⟩
  | .hbm, ⟨50, _⟩ => ⟨S50000x512, .f32⟩
  | .hbm, ⟨51, _⟩ => ⟨S50000x512, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S1x512, .f32⟩
  | .hbm, ⟨66, _⟩ => ⟨S50000x512, .f32⟩
  | .hbm, ⟨67, _⟩ => ⟨S50000x512, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S512, .f32⟩
  | .hbm, ⟨72, _⟩ => ⟨S1x512, .f32⟩
  | .hbm, ⟨73, _⟩ => ⟨S50000x512, .f32⟩
  | .hbm, ⟨74, _⟩ => ⟨S50000x512, .f32⟩
  | .hbm, ⟨75, _⟩ => ⟨S1x512, .f32⟩
  | .hbm, ⟨76, _⟩ => ⟨S50000x512, .f32⟩
  | .hbm, ⟨77, _⟩ => ⟨S50000x512, .f32⟩
  | .hbm, ⟨78, _⟩ => ⟨S1x512, .f32⟩
  | .hbm, ⟨79, _⟩ => ⟨S50000x512, .f32⟩
  | .hbm, ⟨80, _⟩ => ⟨S50000x512, .f32⟩
  | .hbm, ⟨81, _⟩ => ⟨S_, .f32⟩
  | .hbm, ⟨82, _⟩ => ⟨S50000x512, .f32⟩
  | .hbm, ⟨83, _⟩ => ⟨S50000x512, .f32⟩
  | .hbm, ⟨84, _⟩ => ⟨S50000x512, .f32⟩
  | .hbm, ⟨85, _⟩ => ⟨S1x512, .f32⟩
  | .hbm, ⟨86, _⟩ => ⟨S50000x512, .f32⟩
  | .hbm, ⟨87, _⟩ => ⟨S50000x512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_5 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call1_cst : Ref sig .tc := ⟨.hbm, 81, rfl⟩
abbrev main_call1_v0 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S512_d0 : S50000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S50000x512 : S_.BroadcastsInDim S50000x512 (![] : Fin 0 → Fin S50000x512.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x512_S50000x512_1_0_0_1_n_n_wf : DotDims.WF S50000x256 S256x512 S50000x512 [1] [0] [0] [1] [] []
  dot_S50000x512_S512x512_S50000x512_1_0_0_1_n_n_wf : DotDims.WF S50000x512 S512x512 S50000x512 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.KRun.lean ====
/-
  The idealized kernel's run with its result named.

  The program is two grid sweeps among three stretches of host operations. Every weakly fair execution terminates
  without a fault, the nine argument arrays end as they were launched, and the result array ends at what the second
  sweep's write-backs leave in it: the fold `Gen.W4` of the program's segments from the launch memory, read at the
  result's buffer.
-/
import proofs.«146382_j51762945852037_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    segment boundary's contents and the argument arrays as launched. -/
theorem run_out : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.KValue

end
-- ==== Proof.Agg.lean ====
/-
  The weighted neighbour sum: row r of the result is the sum, over the edges e whose target is r, of the weight of e
  times row (source of e) of the feature array. The edge list's two rows are the targets and the sources; a negative
  source index is first moved up by the number of rows. The sum is taken by an accumulating scatter, into an array of
  zeros, of the gathered rows scaled by the weights.
-/
import proofs.«146382_j51762945852037_2_alg».proof.KernelIdeal
import proofs.«146382_j51762945852037_2_alg».proof.Proof.Gen.KernelIdeal
import Idealize.ShloMosaic.PureOps.Ideal

noncomputable section

namespace Cert.KernelIdeal.KValue

open Cert.KernelIdeal Cert.KernelIdeal.Gen
open Idealize.ShloMosaic

/-- The targets: row 0 of the edge list. -/
def rowIdx (a1 : IVec S2x800000 32) : IVec S800000 32 :=
  shapeCast S800000 (extractStridedSlice S1x800000 ![0, 0] a1 slices_S2x800000_S1x800000_0_0) shapeCasts_S1x800000_S800000

/-- The sources: row 1 of the edge list. -/
def colIdx (a1 : IVec S2x800000 32) : IVec S800000 32 :=
  shapeCast S800000 (extractStridedSlice S1x800000 ![1, 0] a1 slices_S2x800000_S1x800000_1_0) shapeCasts_S1x800000_S800000

/-- The sources with a negative index moved up by the number of rows. -/
def srcIdx (a1 : IVec S2x800000 32) : IVec S800000 32 :=
  select (cmpi .slt (colIdx a1) (broadcastInDim S800000 ![] bcast_S_S800000 (constantI S_ 32 0#32)))
    (addi (colIdx a1) (broadcastInDim S800000 ![] bcast_S_S800000 (constantI S_ 32 50000#32)))
    (colIdx a1)

/-- The weighted neighbour sum of the feature array `a0` along the edges `a1` with weights `a2`. -/
def aggK (a0 : FVec Ideal S50000x256 .f32) (a1 : IVec S2x800000 32) (a2 : FVec Ideal S800000 .f32) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 (rowIdx a1))
    (mulf
      (broadcastInDim S800000x256 ![0, 1] bcast_S800000x1_S800000x256_0_1
        (broadcastInDim S800000x1 ![0] bcast_S800000_S800000x1_0 a2))
      (Host.gather gather_S50000x256_S800000x1_S800000x256_1_0_n_n_0_1_1256 a0
        (broadcastInDim S800000x1 ![0] bcast_S800000_S800000x1_0 (srcIdx a1))))

end Cert.KernelIdeal.KValue

end
-- ==== Proof.KEntry.lean ====
/-
  What each sweep finds in the arrays it reads. The first sweep reads the features, the weighted neighbour sum, the
  first weight array and the first bias as a row. The second sweep reads the first sweep's linear-layer array, the
  row of column means and the row of column variances formed from the first sweep's two tables of block sums, the
  scale and shift rows, the second weight array and the second bias row.
-/
import proofs.«146382_j51762945852037_2_alg».proof.Proof.KRun
import proofs.«146382_j51762945852037_2_alg».proof.Proof.Agg
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The row of column means from the table of per-block column sums: the table's column totals over the row count. -/
def meanK (ps : FVec Ideal S200x512 .f32) : FVec Ideal S1x512 .f32 :=
  Host.divf (F := Ideal)
    (broadcastInDim S1x512 ![1] bcast_S512_S1x512_1
      (Host.reduceAdd (F := Ideal) ps (constant (F := Ideal) S_ .f32 0x00000000#32) reducesTo_S200x512_S512_d0 h_S_))
    (broadcastInDim S1x512 ![] bcast_S_S1x512 (constant (F := Ideal) S_ .f32 0x47435000#32))

/-- The row of column variances from the two tables: the mean of the squares less the square of the mean. -/
def varK (ps psq : FVec Ideal S200x512 .f32) : FVec Ideal S1x512 .f32 :=
  subf (meanK psq) (mulf (meanK ps) (meanK ps))

/-! ## What the first sweep finds in its four input arrays -/

set_option maxHeartbeats 1000000 in
theorem entry0_0 (c : Dev nD) : V1 m ρ c (Pipeline.arrRef spec0 0) = (m ((c : Thread nD τ).loc main_arg0)) := by
  show StableHlo.after hostOps0 _ (Proc.devRef .tc main_arg0) = _
  after_results
  all_goals rfl

set_option maxHeartbeats 1000000 in
theorem entry0_1 (c : Dev nD) : V1 m ρ c (Pipeline.arrRef spec0 1) = aggK (m ((c : Thread nD τ).loc main_arg0)) (m ((c : Thread nD τ).loc main_arg1)) (m ((c : Thread nD τ).loc main_arg2)) := by
  show StableHlo.after hostOps0 _ (Proc.devRef .tc main_v16) = _
  after_results_simp
  all_goals rfl

set_option maxHeartbeats 1000000 in
theorem entry0_2 (c : Dev nD) : V1 m ρ c (Pipeline.arrRef spec0 2)
    = (truncf .bf16 ((m ((c : Thread nD τ).loc main_arg3)) : FVec Ideal S256x512 .f32) bitsLt_bf16_f32 : FVec Ideal S256x512 .bf16) := by
  show StableHlo.after hostOps0 _ (Proc.devRef .tc main_v17) = _
  after_results
  all_goals rfl

set_option maxHeartbeats 1000000 in
theorem entry0_3 (c : Dev nD) : V1 m ρ c (Pipeline.arrRef spec0 3)
    = (shapeCast S1x512 ((m ((c : Thread nD τ).loc main_arg4)) : FVec Ideal S512 .f32) shapeCasts_S512_S1x512 : FVec Ideal S1x512 .f32) := by
  show StableHlo.after hostOps0 _ (Proc.devRef .tc main_v19) = _
  after_results
  all_goals rfl

/-! ## What the second sweep finds in its seven input arrays -/

set_option maxHeartbeats 1000000 in
theorem entry1_0 (c : Dev nD) : V3 m ρ c (Pipeline.arrRef spec1 0) = (dat0 (V1 m ρ) c).arrAt 4 cfg0.N := by
  show StableHlo.after hostOps1 _ (Proc.devRef .tc main_v23_0) = _
  after_results
  exact W2_arr m ρ c 4

set_option maxHeartbeats 1000000 in
theorem entry1_1 (c : Dev nD) : V3 m ρ c (Pipeline.arrRef spec1 1) = meanK ((dat0 (V1 m ρ) c).arrAt 5 cfg0.N) := by
  rw [← W2_arr m ρ c 5]
  show StableHlo.after hostOps1 _ (Proc.devRef .tc main_v27) = _
  after_results
  all_goals rfl

set_option maxHeartbeats 1000000 in
theorem entry1_2 (c : Dev nD) : V3 m ρ c (Pipeline.arrRef spec1 2)
    = varK ((dat0 (V1 m ρ) c).arrAt 5 cfg0.N) ((dat0 (V1 m ρ) c).arrAt 6 cfg0.N) := by
  rw [← W2_arr m ρ c 5, ← W2_arr m ρ c 6]
  show StableHlo.after hostOps1 _ (Proc.devRef .tc main_v33) = _
  after_results
  all_goals rfl

set_option maxHeartbeats 1000000 in
theorem entry1_3 (c : Dev nD) : V3 m ρ c (Pipeline.arrRef spec1 3)
    = (shapeCast S1x512 ((m ((c : Thread nD τ).loc main_arg5)) : FVec Ideal S512 .f32) shapeCasts_S512_S1x512 : FVec Ideal S1x512 .f32) := by
  show StableHlo.after hostOps1 _ (Proc.devRef .tc main_v20) = _
  after_results
  rw [W2_of_ne m ρ c main_v20 (by decide)]
  show StableHlo.after hostOps0 _ (Proc.devRef .tc main_v20) = _
  after_results
  all_goals rfl

set_option maxHeartbeats 1000000 in
theorem entry1_4 (c : Dev nD) : V3 m ρ c (Pipeline.arrRef spec1 4)
    = (shapeCast S1x512 ((m ((c : Thread nD τ).loc main_arg6)) : FVec Ideal S512 .f32) shapeCasts_S512_S1x512 : FVec Ideal S1x512 .f32) := by
  show StableHlo.after hostOps1 _ (Proc.devRef .tc main_v21) = _
  after_results
  rw [W2_of_ne m ρ c main_v21 (by decide)]
  show StableHlo.after hostOps0 _ (Proc.devRef .tc main_v21) = _
  after_results
  all_goals rfl

set_option maxHeartbeats 1000000 in
theorem entry1_5 (c : Dev nD) : V3 m ρ c (Pipeline.arrRef spec1 5)
    = (truncf .bf16 ((m ((c : Thread nD τ).loc main_arg7)) : FVec Ideal S512x512 .f32) bitsLt_bf16_f32 : FVec Ideal S512x512 .bf16) := by
  show StableHlo.after hostOps1 _ (Proc.devRef .tc main_v18) = _
  after_results
  rw [W2_of_ne m ρ c main_v18 (by decide)]
  show StableHlo.after hostOps0 _ (Proc.devRef .tc main_v18) = _
  after_results
  all_goals rfl

set_option maxHeartbeats 1000000 in
theorem entry1_6 (c : Dev nD) : V3 m ρ c (Pipeline.arrRef spec1 6)
    = (shapeCast S1x512 ((m ((c : Thread nD τ).loc main_arg8)) : FVec Ideal S512 .f32) shapeCasts_S512_S1x512 : FVec Ideal S1x512 .f32) := by
  show StableHlo.after hostOps1 _ (Proc.devRef .tc main_v22) = _
  after_results
  rw [W2_of_ne m ρ c main_v22 (by decide)]
  show StableHlo.after hostOps0 _ (Proc.devRef .tc main_v22) = _
  after_results
  all_goals rfl

end Cert.KernelIdeal.KValue
end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibColReduce.lean ====
/-
  Reductions of a two-axis array along its FIRST axis, read at an index over the extended reals: the sum down column q is
  the plain sum over the rows of the entries of that column, the minimum down column q is min folded over the rows from
  the initial word. The companions, for the first axis, of the row reductions along the second. For any extents and
  element type. Names no program.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibColReduce

open Idealize.ShloMosaic Idealize.ShloMosaic.ValueIdx

variable {a b : ℕ}

/-- Result index q of a reduction along the first axis, with the dropped coordinate k put back, is (k, q). -/
theorem lift_col (h : (⟨2, ![a, b]⟩ : Shape).Reduces [(0 : Fin 2)] ⟨1, ![b]⟩) (q : Fin b) (k : Fin a) :
    h.lift (ix1 q) k = ix2 k q := by
  funext c
  apply Fin.ext
  match c with
  | ⟨0, _⟩ => rfl
  | ⟨1, _⟩ => rfl

/-- The sum down column q: the plain sum over the rows. -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

/-- The minimum down column q: min folded over the rows from the initial word. -/
theorem colMin_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.minimumf.neutral φ hφ) (q : Fin b) :
    multiReduction .minimumf [(0 : Fin 2)] ⟨1, ![b]⟩ src acc h hφ hacc (ix1 q)
      = (Finset.univ : Finset (Fin a)).fold min (FloatOps.ofBits (F := Ideal) φ acc) (fun k => src (ix2 k q)) := by
  rw [multiReduction_minimumf_eq_fold]
  refine (h.fold_filter_drop_single _ _ src (ix1 q)).trans ?_
  exact congrArg (fun f => (Finset.univ : Finset (Fin a)).fold min (FloatOps.ofBits (F := Ideal) φ acc) f)
    (funext fun k => congrArg src (lift_col h q k))

/-- The sum down column q of an f32 array from the zero word, with the side condition on the initial word spelt as an
    equation between the two literal words (the form a printed reduction carries). -/
theorem colSum_f32 (src : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = 0x00000000#32) (q : Fin b) :
    multiReduction .add [(0 : Fin 2)] ⟨1, ![b]⟩ src 0x00000000#32 h hφ hacc (ix1 q) = ∑ k : Fin a, src (ix2 k q) :=
  colSum_apply src 0x00000000#32 h hφ hacc q

/-- The minimum down column q of an f32 array from the word of +∞, the side condition spelt the same way. -/
theorem colMin_f32 (src : FVec Ideal ⟨2, ![a, b]⟩ .f32)
    (h : (⟨2, ![a, b]⟩ : Shape).Reduces [(0 : Fin 2)] ⟨1, ![b]⟩) (hφ : FKind.Formats .f32)
    (hacc : (0x7F800000#32 : BitVec 32) = 0x7F800000#32) (q : Fin b) :
    multiReduction .minimumf [(0 : Fin 2)] ⟨1, ![b]⟩ src 0x7F800000#32 h hφ hacc (ix1 q)
      = (Finset.univ : Finset (Fin a)).fold min (Ideal.ofBits .f32 0x7F800000#32) (fun k => src (ix2 k q)) :=
  colMin_apply src 0x7F800000#32 h hφ hacc q

end Cert.LibColReduce

end
-- ==== Proof.KBodyA.lean ====
/-
  The first sweep's arithmetic at an index. Over one block of 2000 rows: an entry of the linear layer is the sum over
  the 256 inputs of (1 · feature + neighbour sum) · weight, plus the bias; row 0 of each 8-row block of statistics
  is the column sum (of the layer, or of its square) down the block's rows, and rows 1 … 7 are zero.
-/
import proofs.«146382_j51762945852037_2_alg».proof.Proof.KRun
import proofs.«146382_j51762945852037_2_alg».proof.Proof.LibPlainDot
import proofs.«146382_j51762945852037_2_alg».proof.Proof.LibColReduce
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

open Cert.LibPlainDot Cert.LibColReduce
open scoped BigOperators

/-- One entry of the first linear layer over a block of rows: the feature row plus its neighbour sum, times the weight
    column, plus the bias. -/
def lin {R : ℕ} (x0 x1 : (⟨2, ![R, 256]⟩ : Shape).Idx → EReal) (x2 : (⟨2, ![256, 512]⟩ : Shape).Idx → EReal)
    (x3 : (⟨2, ![1, 512]⟩ : Shape).Idx → EReal) (p : Fin R) (q : Fin 512) : EReal :=
  (∑ k : Fin 256, (Ideal.ofBits .f32 0x3F800000#32 * x0 (ix2 p k) + x1 (ix2 p k)) * x2 (ix2 k q)) + x3 (ix2 (0 : Fin 1) q)

/-- The first sweep's linear layer at row `p`, column `q` of its block. -/
theorem pay1_apply (x0 x1 : Vec Ideal S2000x256 .f32) (x2 : Vec Ideal S256x512 .bf16) (x3 : Vec Ideal S1x512 .f32)
    (p : Fin 2000) (q : Fin 512) : k0_pay1 (F := Ideal) x0 x1 x2 x3 (ix2 p q) = lin x0 x1 x2 x3 p q := by
  unfold k0_pay1 lin
  try dsimp only
  refine (addf_apply _ _ _).trans ?_
  refine congrArg₂ (· + ·) ?_ ?_
  · refine (matmul_zero_apply (R := 2000) (K := 256) (C := 512) dot_S2000x256_S256x512_S2000x512_1_0_0_1_n_n_wf none _ _ p q).trans ?_
    refine Finset.sum_congr rfl fun k _ => ?_
    simp only [truncf_apply, addf_apply, mulf_apply, broadcast_apply, shapeCast_self]
    rfl
  · refine (broadcastTo_1b_ab_apply _ _ p q).trans ?_
    rw [shapeCast_self]

/-- Row 0 of the block of column sums: the sum of the linear layer down the block's rows. -/
theorem pay4_row0 (x0 x1 : Vec Ideal S2000x256 .f32) (x2 : Vec Ideal S256x512 .bf16) (x3 : Vec Ideal S1x512 .f32)
    (q : Fin 512) : k0_pay4 (F := Ideal) x0 x1 x2 x3 (ix2 (0 : Fin 8) q) = ∑ k : Fin 2000, lin x0 x1 x2 x3 k q := by
  unfold k0_pay4
  try dsimp only
  refine (concatenate_pair_apply_left (t := S8x512) (s₁ := S1x512) (s₂ := S7x512) (0 : Fin 2) _ _ concatenates_S1x512_S7x512_S8x512_d0 (ix2 (0 : Fin 8) q) rfl
    (ix2 (0 : Fin 1) q) (fun b => ?_)).trans ?_
  · match b with
    | ⟨0, _⟩ => rfl
    | ⟨1, _⟩ => rfl
  · refine (shapeCast_a_1a_apply _ _ (0 : Fin 1) q).trans ?_
    refine (colSum_f32 _ _ _ _ q).trans ?_
    exact Finset.sum_congr rfl fun k _ => pay1_apply x0 x1 x2 x3 k q

/-- The other seven rows of the block of column sums are zero. -/
theorem pay4_rest (x0 x1 : Vec Ideal S2000x256 .f32) (x2 : Vec Ideal S256x512 .bf16) (x3 : Vec Ideal S1x512 .f32)
    (r : Fin 8) (hr : r.val ≠ 0) (q : Fin 512) : k0_pay4 (F := Ideal) x0 x1 x2 x3 (ix2 r q) = 0 := by
  unfold k0_pay4
  try dsimp only
  have hr8 := r.isLt
  refine (concatenate_pair_apply_right (t := S8x512) (s₁ := S1x512) (s₂ := S7x512) (0 : Fin 2) _ _ concatenates_S1x512_S7x512_S8x512_d0 (ix2 r q) rfl rfl
    (ix2 (⟨r.val - 1, by omega⟩ : Fin 7) q) (fun b hb => ?_) ?_).trans ?_
  · match b with
    | ⟨0, _⟩ => exact absurd rfl hb
    | ⟨1, _⟩ => rfl
  · show (r.val - 1) + 1 = r.val
    omega
  · unfold k0_pay3
    exact Ideal.ofBits_zero_f32

/-- Row 0 of the block of column sums of squares. -/
theorem pay5_row0 (x0 x1 : Vec Ideal S2000x256 .f32) (x2 : Vec Ideal S256x512 .bf16) (x3 : Vec Ideal S1x512 .f32)
    (q : Fin 512) : k0_pay5 (F := Ideal) x0 x1 x2 x3 (ix2 (0 : Fin 8) q)
      = ∑ k : Fin 2000, lin x0 x1 x2 x3 k q * lin x0 x1 x2 x3 k q := by
  unfold k0_pay5
  try dsimp only
  refine (concatenate_pair_apply_left (t := S8x512) (s₁ := S1x512) (s₂ := S7x512) (0 : Fin 2) _ _ concatenates_S1x512_S7x512_S8x512_d0 (ix2 (0 : Fin 8) q) rfl
    (ix2 (0 : Fin 1) q) (fun b => ?_)).trans ?_
  · match b with
    | ⟨0, _⟩ => rfl
    | ⟨1, _⟩ => rfl
  · refine (shapeCast_a_1a_apply _ _ (0 : Fin 1) q).trans ?_
    refine (colSum_f32 _ _ _ _ q).trans ?_
    refine Finset.sum_congr rfl fun k _ => ?_
    refine (mulf_apply _ _ _).trans ?_
    rw [pay1_apply]

/-- The other seven rows of the block of column sums of squares are zero. -/
theorem pay5_rest (x0 x1 : Vec Ideal S2000x256 .f32) (x2 : Vec Ideal S256x512 .bf16) (x3 : Vec Ideal S1x512 .f32)
    (r : Fin 8) (hr : r.val ≠ 0) (q : Fin 512) : k0_pay5 (F := Ideal) x0 x1 x2 x3 (ix2 r q) = 0 := by
  unfold k0_pay5
  try dsimp only
  have hr8 := r.isLt
  refine (concatenate_pair_apply_right (t := S8x512) (s₁ := S1x512) (s₂ := S7x512) (0 : Fin 2) _ _ concatenates_S1x512_S7x512_S8x512_d0 (ix2 r q) rfl rfl
    (ix2 (⟨r.val - 1, by omega⟩ : Fin 7) q) (fun b hb => ?_) ?_).trans ?_
  · match b with
    | ⟨0, _⟩ => exact absurd rfl hb
    | ⟨1, _⟩ => rfl
  · show (r.val - 1) + 1 = r.val
    omega
  · unfold k0_pay3
    exact Ideal.ofBits_zero_f32

end Cert.KernelIdeal.KValue
end
-- ==== Proof.KArr0.lean ====
/-
  From blocks to arrays, first sweep. Grid point t reads rows 2000 t … 2000 t + 1999 of the features and of the
  neighbour sum, and the whole weight and bias arrays; it writes rows 2000 t … of the linear layer and rows
  8 t … 8 t + 7 of each table of block sums. Every row of each output array lies in exactly the block of the point
  r / 2000 (r / 8 for the tables), so after the sweep each output array is one function of the input arrays: the
  linear layer row by row, and the tables with the block's column sums in rows 8 t and zero elsewhere.
-/
import proofs.«146382_j51762945852037_2_alg».proof.Proof.KRun
import proofs.«146382_j51762945852037_2_alg».proof.Proof.KBodyA
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (V : (c : Dev nD) → (b : Ref sig .tc) → Buf (Elt Ideal) ((c : Thread nD τ).loc b))

open scoped BigOperators

theorem hz : (![0, 0] : Fin 2 → Nat) = fun _ => 0 := funext fun a => by fin_cases a <;> rfl

/-- The linear layer over the whole array: entry (n, q). -/
def H1A (x agg : FVec Ideal S50000x256 .f32) (w1 : FVec Ideal S256x512 .bf16) (b1 : FVec Ideal S1x512 .f32) :
    S50000x512.Idx → EReal := fun i => lin x agg w1 b1 (i 0) (i 1)

/-- Column `q` of a 50000-row array read at a natural-number row (zero past the end). -/
def colN (h : S50000x512.Idx → EReal) (q : Fin 512) (n : ℕ) : EReal := if hn : n < 50000 then h (ix2 ⟨n, hn⟩ q) else 0

/-- The table of per-block column sums of `h`: row `8 t` holds the sums of rows `2000 t … 2000 t + 1999`, the other rows zero. -/
def PSA (h : S50000x512.Idx → EReal) : S200x512.Idx → EReal := fun i =>
  if (i 0).val % 8 = 0 then ∑ k : Fin 2000, colN h (i 1) (2000 * ((i 0).val / 8) + k.val) else 0

/-- The square of an array, entry by entry. -/
def sqA (h : S50000x512.Idx → EReal) : S50000x512.Idx → EReal := fun i => h i * h i

/-- Where each window's block sits at grid point `t`: the row-tiled windows at block row `t`, the others at the origin. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem N0 : cfg0.N = 25 := N_0

/-- Row `p` of the feature window's block at point `t` is row `2000 t + p` of the array. -/
theorem blk0_0 (c : Dev nD) (t : Fin cfg0.N) (p : Fin 2000) (k : Fin 256) (n : Fin 50000) (hn : n.val = 2000 * t.val + p.val) :
    ((iblk0 V c 0 t) : Vec Ideal S2000x256 .f32) (ix2 p k) = ((V c (Pipeline.arrRef spec0 0)) : S50000x256.Idx → EReal) (ix2 n k) := by
  obtain ⟨e0, e1, -⟩ := idx0 t
  have hemb : ((cfg0.win 0).blk t).view.emb (ix2 p k) = (ix2 n k : S50000x256.Idx) := funext fun a => Fin.ext (by
    match a with
    | ⟨0, _⟩ => show win0_0.index t (0 : Fin 2) * 2000 + 1 * p.val = n.val; rw [e0, hn]; omega
    | ⟨1, _⟩ => show win0_0.index t (1 : Fin 2) * 256 + 1 * k.val = k.val; rw [e1]; omega)
  unfold iblk0
  rw [View.read_apply]
  show V c (Pipeline.arrRef spec0 0) (((cfg0.win 0).blk t).view.emb (ix2 p k)) = _
  rw [hemb]

/-- The same for the neighbour-sum window. -/
theorem blk0_1 (c : Dev nD) (t : Fin cfg0.N) (p : Fin 2000) (k : Fin 256) (n : Fin 50000) (hn : n.val = 2000 * t.val + p.val) :
    ((iblk0 V c 1 t) : Vec Ideal S2000x256 .f32) (ix2 p k) = ((V c (Pipeline.arrRef spec0 1)) : S50000x256.Idx → EReal) (ix2 n k) := by
  obtain ⟨-, -, e0, e1, -⟩ := idx0 t
  have hemb : ((cfg0.win 1).blk t).view.emb (ix2 p k) = (ix2 n k : S50000x256.Idx) := funext fun a => Fin.ext (by
    match a with
    | ⟨0, _⟩ => show win0_1.index t (0 : Fin 2) * 2000 + 1 * p.val = n.val; rw [e0, hn]; omega
    | ⟨1, _⟩ => show win0_1.index t (1 : Fin 2) * 256 + 1 * k.val = k.val; rw [e1]; omega)
  unfold iblk0
  rw [View.read_apply]
  show V c (Pipeline.arrRef spec0 1) (((cfg0.win 1).blk t).view.emb (ix2 p k)) = _
  rw [hemb]

/-- The weight window's block is the whole weight array at every point. -/
theorem blk0_2 (c : Dev nD) (t : Fin cfg0.N) (k : Fin 256) (q : Fin 512) :
    ((iblk0 V c 2 t) : Vec Ideal S256x512 .bf16) (ix2 k q) = ((V c (Pipeline.arrRef spec0 2)) : S256x512.Idx → EReal) (ix2 k q) := by
  obtain ⟨-, -, -, -, e0, e1, -⟩ := idx0 t
  have hemb : ((cfg0.win 2).blk t).view.emb (ix2 k q) = (ix2 k q : S256x512.Idx) := funext fun a => Fin.ext (by
    match a with
    | ⟨0, _⟩ => show win0_2.index t (0 : Fin 2) * 256 + 1 * k.val = k.val; rw [e0]; omega
    | ⟨1, _⟩ => show win0_2.index t (1 : Fin 2) * 512 + 1 * q.val = q.val; rw [e1]; omega)
  unfold iblk0
  rw [View.read_apply]
  show V c (Pipeline.arrRef spec0 2) (((cfg0.win 2).blk t).view.emb (ix2 k q)) = _
  rw [hemb]

/-- The bias window's block is the whole bias row at every point. -/
theorem blk0_3 (c : Dev nD) (t : Fin cfg0.N) (u : Fin 1) (q : Fin 512) :
    ((iblk0 V c 3 t) : Vec Ideal S1x512 .f32) (ix2 u q) = ((V c (Pipeline.arrRef spec0 3)) : S1x512.Idx → EReal) (ix2 u q) := by
  obtain ⟨-, -, -, -, -, -, e0, e1, -⟩ := idx0 t
  have hemb : ((cfg0.win 3).blk t).view.emb (ix2 u q) = (ix2 u q : S1x512.Idx) := funext fun a => Fin.ext (by
    match a with
    | ⟨0, _⟩ => show win0_3.index t (0 : Fin 2) * 1 + 1 * u.val = u.val; rw [e0]; omega
    | ⟨1, _⟩ => show win0_3.index t (1 : Fin 2) * 512 + 1 * q.val = q.val; rw [e1]; omega)
  unfold iblk0
  rw [View.read_apply]
  show V c (Pipeline.arrRef spec0 3) (((cfg0.win 3).blk t).view.emb (ix2 u q)) = _
  rw [hemb]

/-- The linear layer over point `t`'s blocks at row `p` is the linear layer over the arrays at row `2000 t + p`. -/
theorem lin_blk (c : Dev nD) (t : Fin cfg0.N) (p : Fin 2000) (q : Fin 512) (n : Fin 50000) (hn : n.val = 2000 * t.val + p.val) :
    lin (R := 2000) (iblk0 V c 0 t) (iblk0 V c 1 t) (iblk0 V c 2 t) (iblk0 V c 3 t) p q = lin (R := 50000) (V c (Pipeline.arrRef spec0 0)) (V c (Pipeline.arrRef spec0 1)) (V c (Pipeline.arrRef spec0 2)) (V c (Pipeline.arrRef spec0 3)) n q := by
  unfold lin
  rw [blk0_3 V c t (0 : Fin 1) q]
  refine congrArg₂ (· + ·) (Finset.sum_congr rfl fun k _ => ?_) rfl
  rw [blk0_0 V c t p k n hn, blk0_1 V c t p k n hn, blk0_2 V c t k q]

/-! ## The linear layer's array -/

/-- What point `t` writes back through window 4: block `t` of the linear layer over the whole arrays. -/
theorem flushed0_4 (c : Dev nD) (t : Fin cfg0.N) :
    (dat0 V c).flushed 4 t = ((cfg0.win 4).blk t).view.read (Elt Ideal) (H1A (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero hz]
  simp only [View.ld_unit_zero (S := S2000x256) hz, View.ld_unit_zero (S := S256x512) hz, View.ld_unit_zero (S := S1x512) hz]
  have ht : t.val < 25 := lt_of_lt_of_eq t.isLt N0
  obtain ⟨-, -, -, -, -, -, -, -, e0, e1, -⟩ := idx0 t
  funext j
  obtain ⟨p, q, rfl⟩ : ∃ (p : Fin 2000) (q : Fin 512), j = ix2 p q := ⟨j 0, j 1, eq_ix2 j⟩
  rw [View.read_apply]
  have hp := p.isLt
  have hemb : ((cfg0.win 4).blk t).view.emb (ix2 p q) = (ix2 (⟨2000 * t.val + p.val, by omega⟩ : Fin 50000) q : S50000x512.Idx) :=
    funext fun a => Fin.ext (by
      match a with
      | ⟨0, _⟩ => show win0_4.index t (0 : Fin 2) * 2000 + 1 * p.val = 2000 * t.val + p.val; rw [e0]; omega
      | ⟨1, _⟩ => show win0_4.index t (1 : Fin 2) * 512 + 1 * q.val = q.val; rw [e1]; omega)
  rw [hemb]
  show k0_pay1 (F := Ideal) (iblk0 V c 0 t) (iblk0 V c 1 t) (iblk0 V c 2 t) (iblk0 V c 3 t) (ix2 p q) = _
  refine (pay1_apply (iblk0 V c 0 t) (iblk0 V c 1 t) (iblk0 V c 2 t) (iblk0 V c 3 t) p q).trans ?_
  exact lin_blk V c t p q ⟨2000 * t.val + p.val, by omega⟩ rfl

/-- An index of the array is in point `t`'s block iff each coordinate is in the block's range on its axis. -/
theorem mem_blk0_4 (t : Fin cfg0.N) (i : S50000x512.Idx) :
    i ∈ ((cfg0.win 4).blk t).view.set ↔ ∀ a : Fin 2, win0_4.index t a * S2000x512.size a ≤ (i a).val ∧ (i a).val < win0_4.index t a * S2000x512.size a + S2000x512.size a := by
  show i ∈ ((View.whole main_v23_0).slice (win0_4.rect t)).set ↔ _
  rw [View.set_slice_whole, Rect.mem_set_unit]
  exact Iff.rfl

/-- The array after the sweep: the linear layer, row by row (row `r` is written by point `r / 2000`). -/
theorem final0_4 (c : Dev nD) : (dat0 V c).arrAt 4 cfg0.N = (H1A (V c (Pipeline.arrRef spec0 0)) (V c (Pipeline.arrRef spec0 1)) (V c (Pipeline.arrRef spec0 2)) (V c (Pipeline.arrRef spec0 3))) :=
  (dat0 V c).arrAt_eq_of_cover 4 (H1A (V c (Pipeline.arrRef spec0 0)) (V c (Pipeline.arrRef spec0 1)) (V c (Pipeline.arrRef spec0 2)) (V c (Pipeline.arrRef spec0 3))) (fun t _ => flushed0_4 V c t) fun i => by
    have hi0 : (i 0).val < 50000 := (i 0).isLt
    have hi1 : (i 1).val < 512 := (i 1).isLt
    refine ⟨⟨(i 0).val / 2000, by rw [N0]; omega⟩, flush0_4 _, ?_⟩
    rw [mem_blk0_4]
    obtain ⟨-, -, -, -, -, -, -, -, e0, e1, -⟩ := idx0 ⟨(i 0).val / 2000, by rw [N0]; omega⟩
    intro a
    match a with
    | ⟨0, _⟩ =>
      show win0_4.index _ (0 : Fin 2) * 2000 ≤ (i 0).val ∧ (i 0).val < win0_4.index _ (0 : Fin 2) * 2000 + 2000
      rw [e0]; show (i 0).val / 2000 * 2000 ≤ (i 0).val ∧ (i 0).val < (i 0).val / 2000 * 2000 + 2000; omega
    | ⟨1, _⟩ =>
      show win0_4.index _ (1 : Fin 2) * 512 ≤ (i 1).val ∧ (i 1).val < win0_4.index _ (1 : Fin 2) * 512 + 512
      rw [e1]; omega

/-! ## The two tables of per-block column sums -/

/-- What point `t` writes back through window 5: block `t` of the table. -/
theorem flushed0_5 (c : Dev nD) (t : Fin cfg0.N) :
    (dat0 V c).flushed 5 t = ((cfg0.win 5).blk t).view.read (Elt Ideal) (PSA (H1A (V c (Pipeline.arrRef spec0 0)) (V c (Pipeline.arrRef spec0 1)) (V c (Pipeline.arrRef spec0 2)) (V c (Pipeline.arrRef spec0 3)))) := by
  show (cfg0.win 5).cut (grid0.coords t) ((dat0 V c).after 5 t) = _
  rw [after0_5]
  unfold out0_5
  rw [View.canon_unit_zero hz]
  simp only [View.ld_unit_zero (S := S2000x256) hz, View.ld_unit_zero (S := S256x512) hz, View.ld_unit_zero (S := S1x512) hz]
  have ht : t.val < 25 := lt_of_lt_of_eq t.isLt N0
  obtain ⟨-, -, -, -, -, -, -, -, -, -, e5a, e5b, e6a, e6b⟩ := idx0 t
  funext j
  obtain ⟨r, q, rfl⟩ : ∃ (r : Fin 8) (q : Fin 512), j = ix2 r q := ⟨j 0, j 1, eq_ix2 j⟩
  rw [View.read_apply]
  have hr8 := r.isLt
  have hemb : ((cfg0.win 5).blk t).view.emb (ix2 r q) = (ix2 (⟨8 * t.val + r.val, by omega⟩ : Fin 200) q : S200x512.Idx) :=
    funext fun a => Fin.ext (by
      match a with
      | ⟨0, _⟩ => show win0_5.index t (0 : Fin 2) * 8 + 1 * r.val = 8 * t.val + r.val; rw [e5a]; omega
      | ⟨1, _⟩ => show win0_5.index t (1 : Fin 2) * 512 + 1 * q.val = q.val; rw [e5b]; omega)
  rw [hemb]
  unfold PSA
  by_cases hr : r.val = 0
  · obtain rfl : r = (0 : Fin 8) := Fin.ext hr
    rw [if_pos (by show (8 * t.val + 0) % 8 = 0; omega)]
    refine (pay4_row0 (iblk0 V c 0 t) (iblk0 V c 1 t) (iblk0 V c 2 t) (iblk0 V c 3 t) q).trans ?_
    refine Finset.sum_congr rfl fun k _ => ?_
    have hk := k.isLt
    have hn : 2000 * ((8 * t.val + 0) / 8) + k.val = 2000 * t.val + k.val := by omega
    show _ = colN _ q (2000 * ((8 * t.val + 0) / 8) + k.val)
    rw [hn]
    unfold colN
    rw [dif_pos (by omega : 2000 * t.val + k.val < 50000)]
    rw [lin_blk V c t k q ⟨2000 * t.val + k.val, by omega⟩ rfl]
    rfl
  · rw [if_neg (by show ¬ (8 * t.val + r.val) % 8 = 0; omega)]
    exact pay4_rest (iblk0 V c 0 t) (iblk0 V c 1 t) (iblk0 V c 2 t) (iblk0 V c 3 t) r hr q

/-- An index of the table is in point `t`'s block iff each coordinate is in the block's range on its axis. -/
theorem mem_blk0_5 (t : Fin cfg0.N) (i : S200x512.Idx) :
    i ∈ ((cfg0.win 5).blk t).view.set ↔ ∀ a : Fin 2, win0_5.index t a * S8x512.size a ≤ (i a).val ∧ (i a).val < win0_5.index t a * S8x512.size a + S8x512.size a := by
  show i ∈ ((View.whole main_v23_1).slice (win0_5.rect t)).set ↔ _
  rw [View.set_slice_whole, Rect.mem_set_unit]
  exact Iff.rfl

/-- The table after the sweep. -/
theorem final0_5 (c : Dev nD) : (dat0 V c).arrAt 5 cfg0.N = PSA (H1A (V c (Pipeline.arrRef spec0 0)) (V c (Pipeline.arrRef spec0 1)) (V c (Pipeline.arrRef spec0 2)) (V c (Pipeline.arrRef spec0 3))) :=
  (dat0 V c).arrAt_eq_of_cover 5 (PSA (H1A (V c (Pipeline.arrRef spec0 0)) (V c (Pipeline.arrRef spec0 1)) (V c (Pipeline.arrRef spec0 2)) (V c (Pipeline.arrRef spec0 3)))) (fun t _ => flushed0_5 V c t) fun i => by
    have hi0 : (i 0).val < 200 := (i 0).isLt
    have hi1 : (i 1).val < 512 := (i 1).isLt
    refine ⟨⟨(i 0).val / 8, by rw [N0]; omega⟩, flush0_5 _, ?_⟩
    rw [mem_blk0_5]
    obtain ⟨-, -, -, -, -, -, -, -, -, -, e5a, e5b, e6a, e6b⟩ := idx0 ⟨(i 0).val / 8, by rw [N0]; omega⟩
    intro a
    match a with
    | ⟨0, _⟩ =>
      show win0_5.index _ (0 : Fin 2) * 8 ≤ (i 0).val ∧ (i 0).val < win0_5.index _ (0 : Fin 2) * 8 + 8
      rw [e5a]; show (i 0).val / 8 * 8 ≤ (i 0).val ∧ (i 0).val < (i 0).val / 8 * 8 + 8; omega
    | ⟨1, _⟩ =>
      show win0_5.index _ (1 : Fin 2) * 512 ≤ (i 1).val ∧ (i 1).val < win0_5.index _ (1 : Fin 2) * 512 + 512
      rw [e5b]; omega

/-- What point `t` writes back through window 6: block `t` of the table. -/
theorem flushed0_6 (c : Dev nD) (t : Fin cfg0.N) :
    (dat0 V c).flushed 6 t = ((cfg0.win 6).blk t).view.read (Elt Ideal) (PSA (sqA (H1A (V c (Pipeline.arrRef spec0 0)) (V c (Pipeline.arrRef spec0 1)) (V c (Pipeline.arrRef spec0 2)) (V c (Pipeline.arrRef spec0 3))))) := by
  show (cfg0.win 6).cut (grid0.coords t) ((dat0 V c).after 6 t) = _
  rw [after0_6]
  unfold out0_6
  rw [View.canon_unit_zero hz]
  simp only [View.ld_unit_zero (S := S2000x256) hz, View.ld_unit_zero (S := S256x512) hz, View.ld_unit_zero (S := S1x512) hz]
  have ht : t.val < 25 := lt_of_lt_of_eq t.isLt N0
  obtain ⟨-, -, -, -, -, -, -, -, -, -, e5a, e5b, e6a, e6b⟩ := idx0 t
  funext j
  obtain ⟨r, q, rfl⟩ : ∃ (r : Fin 8) (q : Fin 512), j = ix2 r q := ⟨j 0, j 1, eq_ix2 j⟩
  rw [View.read_apply]
  have hr8 := r.isLt
  have hemb : ((cfg0.win 6).blk t).view.emb (ix2 r q) = (ix2 (⟨8 * t.val + r.val, by omega⟩ : Fin 200) q : S200x512.Idx) :=
    funext fun a => Fin.ext (by
      match a with
      | ⟨0, _⟩ => show win0_6.index t (0 : Fin 2) * 8 + 1 * r.val = 8 * t.val + r.val; rw [e6a]; omega
      | ⟨1, _⟩ => show win0_6.index t (1 : Fin 2) * 512 + 1 * q.val = q.val; rw [e6b]; omega)
  rw [hemb]
  unfold PSA
  by_cases hr : r.val = 0
  · obtain rfl : r = (0 : Fin 8) := Fin.ext hr
    rw [if_pos (by show (8 * t.val + 0) % 8 = 0; omega)]
    refine (pay5_row0 (iblk0 V c 0 t) (iblk0 V c 1 t) (iblk0 V c 2 t) (iblk0 V c 3 t) q).trans ?_
    refine Finset.sum_congr rfl fun k _ => ?_
    have hk := k.isLt
    have hn : 2000 * ((8 * t.val + 0) / 8) + k.val = 2000 * t.val + k.val := by omega
    show _ = colN _ q (2000 * ((8 * t.val + 0) / 8) + k.val)
    rw [hn]
    unfold colN
    rw [dif_pos (by omega : 2000 * t.val + k.val < 50000)]
    rw [lin_blk V c t k q ⟨2000 * t.val + k.val, by omega⟩ rfl]
    rfl
  · rw [if_neg (by show ¬ (8 * t.val + r.val) % 8 = 0; omega)]
    exact pay5_rest (iblk0 V c 0 t) (iblk0 V c 1 t) (iblk0 V c 2 t) (iblk0 V c 3 t) r hr q

/-- An index of the table is in point `t`'s block iff each coordinate is in the block's range on its axis. -/
theorem mem_blk0_6 (t : Fin cfg0.N) (i : S200x512.Idx) :
    i ∈ ((cfg0.win 6).blk t).view.set ↔ ∀ a : Fin 2, win0_6.index t a * S8x512.size a ≤ (i a).val ∧ (i a).val < win0_6.index t a * S8x512.size a + S8x512.size a := by
  show i ∈ ((View.whole main_v23_2).slice (win0_6.rect t)).set ↔ _
  rw [View.set_slice_whole, Rect.mem_set_unit]
  exact Iff.rfl

/-- The table after the sweep. -/
theorem final0_6 (c : Dev nD) : (dat0 V c).arrAt 6 cfg0.N = PSA (sqA (H1A (V c (Pipeline.arrRef spec0 0)) (V c (Pipeline.arrRef spec0 1)) (V c (Pipeline.arrRef spec0 2)) (V c (Pipeline.arrRef spec0 3)))) :=
  (dat0 V c).arrAt_eq_of_cover 6 (PSA (sqA (H1A (V c (Pipeline.arrRef spec0 0)) (V c (Pipeline.arrRef spec0 1)) (V c (Pipeline.arrRef spec0 2)) (V c (Pipeline.arrRef spec0 3))))) (fun t _ => flushed0_6 V c t) fun i => by
    have hi0 : (i 0).val < 200 := (i 0).isLt
    have hi1 : (i 1).val < 512 := (i 1).isLt
    refine ⟨⟨(i 0).val / 8, by rw [N0]; omega⟩, flush0_6 _, ?_⟩
    rw [mem_blk0_6]
    obtain ⟨-, -, -, -, -, -, -, -, -, -, e5a, e5b, e6a, e6b⟩ := idx0 ⟨(i 0).val / 8, by rw [N0]; omega⟩
    intro a
    match a with
    | ⟨0, _⟩ =>
      show win0_6.index _ (0 : Fin 2) * 8 ≤ (i 0).val ∧ (i 0).val < win0_6.index _ (0 : Fin 2) * 8 + 8
      rw [e6a]; show (i 0).val / 8 * 8 ≤ (i 0).val ∧ (i 0).val < (i 0).val / 8 * 8 + 8; omega
    | ⟨1, _⟩ =>
      show win0_6.index _ (1 : Fin 2) * 512 ≤ (i 1).val ∧ (i 1).val < win0_6.index _ (1 : Fin 2) * 512 + 512
      rw [e6b]; omega

end Cert.KernelIdeal.KValue
end
-- ==== Proof.KBodyB.lean ====
/-
  The second sweep's arithmetic at an index. Over one block of 2000 rows, entry (p, q) is the sum over the 512 columns
  k of max(((h(p,k) - mean k) · rsqrt(var k + ε)) · γ k + β k, 0) · w(k,q), plus the bias b(q).
-/
import proofs.«146382_j51762945852037_2_alg».proof.Proof.KRun
import proofs.«146382_j51762945852037_2_alg».proof.Proof.LibPlainDot
import proofs.«146382_j51762945852037_2_alg».proof.Proof.LibColReduce
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

open Cert.LibPlainDot Cert.LibColReduce
open scoped BigOperators

/-- One entry of the second layer over a block of rows: the row is normalised by the column mean and variance
    ((h − mean) · rsqrt(var + ε)), scaled and shifted (· gamma + beta), clipped below at zero, multiplied by the weight
    column, and the bias added. -/
def post {R : ℕ} (h : (⟨2, ![R, 512]⟩ : Shape).Idx → EReal) (var mean gamma beta : (⟨2, ![1, 512]⟩ : Shape).Idx → EReal)
    (w2 : (⟨2, ![512, 512]⟩ : Shape).Idx → EReal) (b2 : (⟨2, ![1, 512]⟩ : Shape).Idx → EReal) (p : Fin R) (q : Fin 512) :
    EReal :=
  (∑ k : Fin 512,
      max (((h (ix2 p k) - mean (ix2 (0 : Fin 1) k)) * Ideal.rsqrt (var (ix2 (0 : Fin 1) k) + Ideal.ofBits .f32 0x3727C5AC#32))
            * gamma (ix2 (0 : Fin 1) k) + beta (ix2 (0 : Fin 1) k))
          (Ideal.ofBits .f32 0x00000000#32)
        * w2 (ix2 k q))
    + b2 (ix2 (0 : Fin 1) q)

/-- A reciprocal square root at an index is the reciprocal square root of the element. -/
theorem rsqrt_apply {s : Shape} {φ : FTy} (a : FVec Ideal s φ) (i : s.Idx) : rsqrt a i = Ideal.rsqrt (a i) := rfl

/-- The second sweep's layer at row p, column q of its block. -/
theorem pay_b_apply (v0 : Vec Ideal S2000x512 .bf16) (v3 v8 v14 v18 : Vec Ideal S1x512 .f32)
    (v25 : Vec Ideal S512x512 .bf16) (v28 : Vec Ideal S1x512 .f32) (p : Fin 2000) (q : Fin 512) :
    k1_pay1 (F := Ideal) v0 v3 v8 v14 v18 v25 v28 (ix2 p q) = post v0 v3 v8 v14 v18 v25 v28 p q := by
  unfold k1_pay1 post
  try dsimp only
  refine (addf_apply _ _ _).trans ?_
  refine congrArg₂ (· + ·) ?_ ?_
  · refine (matmul_zero_apply (R := 2000) (K := 512) (C := 512) dot_S2000x512_S512x512_S2000x512_1_0_0_1_n_n_wf none _ _ p q).trans ?_
    refine Finset.sum_congr rfl fun k _ => ?_
    simp only [truncf_apply, extf_apply, maximumf_apply, addf_apply, mulf_apply, subf_apply, rsqrt_apply,
      broadcast_apply, shapeCast_self, broadcastTo_1b_ab_apply]
    rfl
  · refine (broadcastTo_1b_ab_apply _ _ p q).trans ?_
    rw [shapeCast_self]

end Cert.KernelIdeal.KValue
end
-- ==== Proof.KArr1.lean ====
/-
  From blocks to the array, second sweep. Grid point t reads rows 2000 t … 2000 t + 1999 of the linear layer and the
  whole of the six small arrays, and writes rows 2000 t … of the result; every row of the result lies in the block of
  the point r / 2000, so after the sweep the result is the second half of the network, row by row, over the arrays
  the sweep was entered with.
-/
import proofs.«146382_j51762945852037_2_alg».proof.Proof.KRun
import proofs.«146382_j51762945852037_2_alg».proof.Proof.KBodyB
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (V : (c : Dev nD) → (b : Ref sig .tc) → Buf (Elt Ideal) ((c : Thread nD τ).loc b))

open scoped BigOperators

theorem hz' : (![0, 0] : Fin 2 → Nat) = fun _ => 0 := funext fun a => by fin_cases a <;> rfl

/-- The second layer over the whole array: entry (n, q), from the linear layer's array, the mean, variance, scale and
    shift rows, the second weight and the second bias. -/
def OutA (h : FVec Ideal S50000x512 .bf16) (mean var gamma beta : FVec Ideal S1x512 .f32) (w2 : FVec Ideal S512x512 .bf16)
    (b2 : FVec Ideal S1x512 .f32) : S50000x512.Idx → EReal :=
  fun i => post (R := 50000) h var mean gamma beta w2 b2 (i 0) (i 1)

/-- Where each window's block sits at grid point t: the two row-tiled windows at block row t, the others at the
    origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem N1 : cfg1.N = 25 := N_1

/-- Row p of the linear-layer window's block at point t is row 2000 t + p of the array. -/
theorem blk1_0 (c : Dev nD) (t : Fin cfg1.N) (p : Fin 2000) (k : Fin 512) (n : Fin 50000) (hn : n.val = 2000 * t.val + p.val) :
    ((iblk1 V c 0 t) : Vec Ideal S2000x512 .bf16) (ix2 p k) = ((V c (Pipeline.arrRef spec1 0)) : S50000x512.Idx → EReal) (ix2 n k) := by
  obtain ⟨e0, e1, -⟩ := idx1 t
  have hemb : ((cfg1.win 0).blk t).view.emb (ix2 p k) = (ix2 n k : S50000x512.Idx) :=
    funext fun a => Fin.ext (by
      match a with
      | ⟨0, _⟩ => show win1_0.index t (0 : Fin 2) * 2000 + 1 * p.val = n.val; rw [e0, hn]; omega
      | ⟨1, _⟩ => show win1_0.index t (1 : Fin 2) * 512 + 1 * k.val = k.val; rw [e1]; omega)
  unfold iblk1
  rw [View.read_apply]
  show V c (Pipeline.arrRef spec1 0) (((cfg1.win 0).blk t).view.emb (ix2 p k)) = _
  rw [hemb]

/-- The mean row window's block is the whole row at every point. -/
theorem blk1_1 (c : Dev nD) (t : Fin cfg1.N) (u : Fin 1) (q : Fin 512) :
    ((iblk1 V c 1 t) : Vec Ideal S1x512 .f32) (ix2 u q) = ((V c (Pipeline.arrRef spec1 1)) : S1x512.Idx → EReal) (ix2 u q) := by
  obtain ⟨-, -, e0, e1, -⟩ := idx1 t
  have hemb : ((cfg1.win 1).blk t).view.emb (ix2 u q) = (ix2 u q : S1x512.Idx) :=
    funext fun a => Fin.ext (by
      match a with
      | ⟨0, _⟩ => show win1_1.index t (0 : Fin 2) * 1 + 1 * u.val = u.val; rw [e0]; omega
      | ⟨1, _⟩ => show win1_1.index t (1 : Fin 2) * 512 + 1 * q.val = q.val; rw [e1]; omega)
  unfold iblk1
  rw [View.read_apply]
  show V c (Pipeline.arrRef spec1 1) (((cfg1.win 1).blk t).view.emb (ix2 u q)) = _
  rw [hemb]

/-- The variance row window's block is the whole row at every point. -/
theorem blk1_2 (c : Dev nD) (t : Fin cfg1.N) (u : Fin 1) (q : Fin 512) :
    ((iblk1 V c 2 t) : Vec Ideal S1x512 .f32) (ix2 u q) = ((V c (Pipeline.arrRef spec1 2)) : S1x512.Idx → EReal) (ix2 u q) := by
  obtain ⟨-, -, -, -, e0, e1, -⟩ := idx1 t
  have hemb : ((cfg1.win 2).blk t).view.emb (ix2 u q) = (ix2 u q : S1x512.Idx) :=
    funext fun a => Fin.ext (by
      match a with
      | ⟨0, _⟩ => show win1_2.index t (0 : Fin 2) * 1 + 1 * u.val = u.val; rw [e0]; omega
      | ⟨1, _⟩ => show win1_2.index t (1 : Fin 2) * 512 + 1 * q.val = q.val; rw [e1]; omega)
  unfold iblk1
  rw [View.read_apply]
  show V c (Pipeline.arrRef spec1 2) (((cfg1.win 2).blk t).view.emb (ix2 u q)) = _
  rw [hemb]

/-- The scale row window's block is the whole row at every point. -/
theorem blk1_3 (c : Dev nD) (t : Fin cfg1.N) (u : Fin 1) (q : Fin 512) :
    ((iblk1 V c 3 t) : Vec Ideal S1x512 .f32) (ix2 u q) = ((V c (Pipeline.arrRef spec1 3)) : S1x512.Idx → EReal) (ix2 u q) := by
  obtain ⟨-, -, -, -, -, -, e0, e1, -⟩ := idx1 t
  have hemb : ((cfg1.win 3).blk t).view.emb (ix2 u q) = (ix2 u q : S1x512.Idx) :=
    funext fun a => Fin.ext (by
      match a with
      | ⟨0, _⟩ => show win1_3.index t (0 : Fin 2) * 1 + 1 * u.val = u.val; rw [e0]; omega
      | ⟨1, _⟩ => show win1_3.index t (1 : Fin 2) * 512 + 1 * q.val = q.val; rw [e1]; omega)
  unfold iblk1
  rw [View.read_apply]
  show V c (Pipeline.arrRef spec1 3) (((cfg1.win 3).blk t).view.emb (ix2 u q)) = _
  rw [hemb]

/-- The shift row window's block is the whole row at every point. -/
theorem blk1_4 (c : Dev nD) (t : Fin cfg1.N) (u : Fin 1) (q : Fin 512) :
    ((iblk1 V c 4 t) : Vec Ideal S1x512 .f32) (ix2 u q) = ((V c (Pipeline.arrRef spec1 4)) : S1x512.Idx → EReal) (ix2 u q) := by
  obtain ⟨-, -, -, -, -, -, -, -, e0, e1, -⟩ := idx1 t
  have hemb : ((cfg1.win 4).blk t).view.emb (ix2 u q) = (ix2 u q : S1x512.Idx) :=
    funext fun a => Fin.ext (by
      match a with
      | ⟨0, _⟩ => show win1_4.index t (0 : Fin 2) * 1 + 1 * u.val = u.val; rw [e0]; omega
      | ⟨1, _⟩ => show win1_4.index t (1 : Fin 2) * 512 + 1 * q.val = q.val; rw [e1]; omega)
  unfold iblk1
  rw [View.read_apply]
  show V c (Pipeline.arrRef spec1 4) (((cfg1.win 4).blk t).view.emb (ix2 u q)) = _
  rw [hemb]

/-- The second bias row window's block is the whole row at every point. -/
theorem blk1_6 (c : Dev nD) (t : Fin cfg1.N) (u : Fin 1) (q : Fin 512) :
    ((iblk1 V c 6 t) : Vec Ideal S1x512 .f32) (ix2 u q) = ((V c (Pipeline.arrRef spec1 6)) : S1x512.Idx → EReal) (ix2 u q) := by
  obtain ⟨-, -, -, -, -, -, -, -, -, -, -, -, e0, e1, -⟩ := idx1 t
  have hemb : ((cfg1.win 6).blk t).view.emb (ix2 u q) = (ix2 u q : S1x512.Idx) :=
    funext fun a => Fin.ext (by
      match a with
      | ⟨0, _⟩ => show win1_6.index t (0 : Fin 2) * 1 + 1 * u.val = u.val; rw [e0]; omega
      | ⟨1, _⟩ => show win1_6.index t (1 : Fin 2) * 512 + 1 * q.val = q.val; rw [e1]; omega)
  unfold iblk1
  rw [View.read_apply]
  show V c (Pipeline.arrRef spec1 6) (((cfg1.win 6).blk t).view.emb (ix2 u q)) = _
  rw [hemb]

/-- The second weight window's block is the whole weight array at every point. -/
theorem blk1_5 (c : Dev nD) (t : Fin cfg1.N) (k : Fin 512) (q : Fin 512) :
    ((iblk1 V c 5 t) : Vec Ideal S512x512 .bf16) (ix2 k q) = ((V c (Pipeline.arrRef spec1 5)) : S512x512.Idx → EReal) (ix2 k q) := by
  obtain ⟨-, -, -, -, -, -, -, -, -, -, e0, e1, -⟩ := idx1 t
  have hemb : ((cfg1.win 5).blk t).view.emb (ix2 k q) = (ix2 k q : S512x512.Idx) :=
    funext fun a => Fin.ext (by
      match a with
      | ⟨0, _⟩ => show win1_5.index t (0 : Fin 2) * 512 + 1 * k.val = k.val; rw [e0]; omega
      | ⟨1, _⟩ => show win1_5.index t (1 : Fin 2) * 512 + 1 * q.val = q.val; rw [e1]; omega)
  unfold iblk1
  rw [View.read_apply]
  show V c (Pipeline.arrRef spec1 5) (((cfg1.win 5).blk t).view.emb (ix2 k q)) = _
  rw [hemb]

/-- The second layer over point t's blocks at row p is the second layer over the arrays at row 2000 t + p. -/
theorem post_blk (c : Dev nD) (t : Fin cfg1.N) (p : Fin 2000) (q : Fin 512) (n : Fin 50000) (hn : n.val = 2000 * t.val + p.val) :
    post (R := 2000) (iblk1 V c 0 t) (iblk1 V c 2 t) (iblk1 V c 1 t) (iblk1 V c 3 t) (iblk1 V c 4 t) (iblk1 V c 5 t) (iblk1 V c 6 t) p q
      = post (R := 50000) (V c (Pipeline.arrRef spec1 0)) (V c (Pipeline.arrRef spec1 2)) (V c (Pipeline.arrRef spec1 1)) (V c (Pipeline.arrRef spec1 3)) (V c (Pipeline.arrRef spec1 4)) (V c (Pipeline.arrRef spec1 5)) (V c (Pipeline.arrRef spec1 6)) n q := by
  unfold post
  rw [blk1_6 V c t (0 : Fin 1) q]
  refine congrArg₂ (· + ·) (Finset.sum_congr rfl fun k _ => ?_) rfl
  rw [blk1_0 V c t p k n hn, blk1_1 V c t (0 : Fin 1) k, blk1_2 V c t (0 : Fin 1) k, blk1_3 V c t (0 : Fin 1) k,
    blk1_4 V c t (0 : Fin 1) k, blk1_5 V c t k q]

/-! ## The second layer's array -/

/-- What point t writes back through window 7: block t of the second layer over the whole arrays. -/
theorem flushed1_7 (c : Dev nD) (t : Fin cfg1.N) :
    (dat1 V c).flushed 7 t = ((cfg1.win 7).blk t).view.read (Elt Ideal) (OutA (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) := by
  show (cfg1.win 7).cut (grid1.coords t) ((dat1 V c).after 7 t) = _
  rw [after1_7]
  unfold out1_7
  rw [View.canon_unit_zero hz']
  simp only [View.ld_unit_zero (S := S2000x512) hz', View.ld_unit_zero (S := S1x512) hz', View.ld_unit_zero (S := S512x512) hz']
  have ht : t.val < 25 := lt_of_lt_of_eq t.isLt N1
  obtain ⟨-, -, -, -, -, -, -, -, -, -, -, -, -, -, e0, e1⟩ := idx1 t
  funext j
  obtain ⟨p, q, rfl⟩ : ∃ (p : Fin 2000) (q : Fin 512), j = ix2 p q := ⟨j 0, j 1, eq_ix2 j⟩
  rw [View.read_apply]
  have hp := p.isLt
  have hemb : ((cfg1.win 7).blk t).view.emb (ix2 p q) = (ix2 (⟨2000 * t.val + p.val, by omega⟩ : Fin 50000) q : S50000x512.Idx) :=
    funext fun a => Fin.ext (by
      match a with
      | ⟨0, _⟩ => show win1_7.index t (0 : Fin 2) * 2000 + 1 * p.val = 2000 * t.val + p.val; rw [e0]; omega
      | ⟨1, _⟩ => show win1_7.index t (1 : Fin 2) * 512 + 1 * q.val = q.val; rw [e1]; omega)
  rw [hemb]
  show k1_pay1 (F := Ideal) (iblk1 V c 0 t) (iblk1 V c 2 t) (iblk1 V c 1 t) (iblk1 V c 3 t) (iblk1 V c 4 t) (iblk1 V c 5 t) (iblk1 V c 6 t) (ix2 p q) = _
  refine (pay_b_apply (iblk1 V c 0 t) (iblk1 V c 2 t) (iblk1 V c 1 t) (iblk1 V c 3 t) (iblk1 V c 4 t) (iblk1 V c 5 t) (iblk1 V c 6 t) p q).trans ?_
  exact post_blk V c t p q ⟨2000 * t.val + p.val, by omega⟩ rfl

/-- An index of the array is in point t's block iff each coordinate is in the block's range on its axis. -/
theorem mem_blk1_7 (t : Fin cfg1.N) (i : S50000x512.Idx) :
    i ∈ ((cfg1.win 7).blk t).view.set ↔ ∀ a : Fin 2, win1_7.index t a * S2000x512.size a ≤ (i a).val ∧ (i a).val < win1_7.index t a * S2000x512.size a + S2000x512.size a := by
  show i ∈ ((View.whole main_v34).slice (win1_7.rect t)).set ↔ _
  rw [View.set_slice_whole, Rect.mem_set_unit]
  exact Iff.rfl

/-- The array after the sweep: the second layer, row by row (row r is written by point r / 2000). -/
theorem final1_7 (c : Dev nD) : (dat1 V c).arrAt 7 cfg1.N = (OutA (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) :=
  (dat1 V c).arrAt_eq_of_cover 7 (OutA (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) (fun t _ => flushed1_7 V c t) fun i => by
    have hi0 : (i 0).val < 50000 := (i 0).isLt
    have hi1 : (i 1).val < 512 := (i 1).isLt
    refine ⟨⟨(i 0).val / 2000, by rw [N1]; omega⟩, flush1_7 _, ?_⟩
    rw [mem_blk1_7]
    obtain ⟨-, -, -, -, -, -, -, -, -, -, -, -, -, -, e0, e1⟩ := idx1 ⟨(i 0).val / 2000, by rw [N1]; omega⟩
    intro a
    match a with
    | ⟨0, _⟩ =>
      show win1_7.index _ (0 : Fin 2) * 2000 ≤ (i 0).val ∧ (i 0).val < win1_7.index _ (0 : Fin 2) * 2000 + 2000
      rw [e0]; show (i 0).val / 2000 * 2000 ≤ (i 0).val ∧ (i 0).val < (i 0).val / 2000 * 2000 + 2000; omega
    | ⟨1, _⟩ =>
      show win1_7.index _ (1 : Fin 2) * 512 ≤ (i 1).val ∧ (i 1).val < win1_7.index _ (1 : Fin 2) * 512 + 512
      rw [e1]; omega

end Cert.KernelIdeal.KValue
end
-- ==== Proof.Spec.lean ====
/-
  The network as plain formulas, index by index, over the extended reals.

  A linear layer over the sum of a feature row and its neighbour sum; and the second half: each entry centred by
  its column's mean, scaled by the reciprocal square root of the column's variance plus a small constant, scaled and
  shifted per column, clipped below at zero, and put through a second linear layer.
-/
import Idealize.ShloMosaic.PureOps.Ideal
import Idealize.ShloMosaic.Lib.ValueIdx

noncomputable section

namespace Cert.Spec

open Idealize.ShloMosaic Idealize.ShloMosaic.ValueIdx
open scoped BigOperators

/-- Entry (p, q) of the first linear layer: ∑ₖ (1 · x(p,k) + agg(p,k)) · w(k,q) + b(q). -/
def linV {R : ℕ} (x agg : (⟨2, ![R, 256]⟩ : Shape).Idx → EReal) (w1 : (⟨2, ![256, 512]⟩ : Shape).Idx → EReal)
    (b1 : Fin 512 → EReal) (p : Fin R) (q : Fin 512) : EReal :=
  (∑ k : Fin 256, (Ideal.ofBits .f32 0x3F800000#32 * x (ix2 p k) + agg (ix2 p k)) * w1 (ix2 k q)) + b1 q

/-- Entry (p, q) of the second half: ∑ₖ max(((h(p,k) - mean k) · rsqrt(var k + ε)) · γ k + β k, 0) · w(k,q) + b(q). -/
def postV {R : ℕ} (h : (⟨2, ![R, 512]⟩ : Shape).Idx → EReal) (var mean gamma beta : Fin 512 → EReal)
    (w2 : (⟨2, ![512, 512]⟩ : Shape).Idx → EReal) (b2 : Fin 512 → EReal) (p : Fin R) (q : Fin 512) : EReal :=
  (∑ k : Fin 512, max (((h (ix2 p k) - mean k) * Ideal.rsqrt (var k + Ideal.ofBits .f32 0x3727C5AC#32)) * gamma k + beta k)
      (Ideal.ofBits .f32 0x00000000#32) * w2 (ix2 k q)) + b2 q

/-- The mean of column `q` over the `N` rows, the divisor the real number `c`. -/
def meanV {N : ℕ} (h : (⟨2, ![N, 512]⟩ : Shape).Idx → EReal) (c : ℝ) (q : Fin 512) : EReal :=
  Ideal.div (0 + ∑ n : Fin N, h (ix2 n q)) (c : EReal)

/-- The variance of column `q` as the mean of the squared deviations from the mean. -/
def varDevV {N : ℕ} (h : (⟨2, ![N, 512]⟩ : Shape).Idx → EReal) (c : ℝ) (q : Fin 512) : EReal :=
  Ideal.div (0 + ∑ n : Fin N, (h (ix2 n q) - meanV h c q) * (h (ix2 n q) - meanV h c q)) (c : EReal)

/-- The variance of column `q` as the mean of the squares less the square of the mean. -/
def varSqV {N : ℕ} (h : (⟨2, ![N, 512]⟩ : Shape).Idx → EReal) (c : ℝ) (q : Fin 512) : EReal :=
  Ideal.div (0 + ∑ n : Fin N, h (ix2 n q) * h (ix2 n q)) (c : EReal) - meanV h c q * meanV h c q

end Cert.Spec

end
-- ==== Proof.LibFinite.lean ====
import Idealize.ShloMosaic.PureOps.Ideal
import Idealize.ShloMosaic.PureOps.Ideal.Laws
import Idealize.ShloMosaic.Lib.ValueIdx

/-!
  Extended reals that are real numbers, and the operations that keep them so.

  The ideal float values are extended reals. An entry that is the coercion of a real number (neither infinity) stays one
  under sums, products, maxima, finite sums, real powers, gathers, accumulating scatters and selections; and over such
  entries a dot product may be scaled inside the sum.
-/

noncomputable section

namespace Idealize.ShloMosaic.LibFinite

open Idealize.ShloMosaic Idealize.ShloMosaic.ValueIdx
open scoped BigOperators

/-- An extended real that is a real number: the coercion of some `r : ℝ`, so neither infinity. -/
def IsReal (x : EReal) : Prop := ∃ r : ℝ, x = (r : EReal)

/-- Zero is a real number. -/
theorem IsReal.zero : IsReal (0 : EReal) := ⟨0, rfl⟩

/-- The coercion of a real number is one. -/
theorem IsReal.coe (r : ℝ) : IsReal (r : EReal) := ⟨r, rfl⟩

/-- The sum of two real numbers is real. -/
theorem IsReal.add (a b : EReal) : IsReal a → IsReal b → IsReal (a + b) := by
  rintro ⟨x, rfl⟩ ⟨y, rfl⟩; exact ⟨x + y, (EReal.coe_add x y).symm⟩

/-- The product of two real numbers is real. -/
theorem IsReal.mul (a b : EReal) : IsReal a → IsReal b → IsReal (a * b) := by
  rintro ⟨x, rfl⟩ ⟨y, rfl⟩; exact ⟨x * y, (EReal.coe_mul x y).symm⟩

/-- The larger of two real numbers is real. -/
theorem IsReal.max (a b : EReal) : IsReal a → IsReal b → IsReal (Max.max a b) := by
  intro ha hb
  rcases le_total a b with h | h
  · rw [max_eq_right h]; exact hb
  · rw [max_eq_left h]; exact ha

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add _ _ (h a (Finset.mem_insert_self a s)) (ih fun i hi => h i (Finset.mem_insert_of_mem hi))

/-- A binary pattern whose exponent field is not all ones denotes a real number (a zero, a subnormal or a normal). -/
theorem isReal_ieee_of_exponent_ne (e m : ℕ) {w : ℕ} (b : BitVec w) (h : (b.extractLsb' m e).toNat ≠ 2 ^ e - 1) :
    IsReal (Ideal.ieee e m b) := by
  unfold Ideal.ieee
  dsimp only
  rw [if_neg h]
  split <;> exact ⟨_, rfl⟩

/-- The single-precision word of all zero bits denotes a real number (zero). -/
theorem isReal_ofBits_zero : IsReal (Ideal.ofBits .f32 0x00000000#32) := by
  rw [Ideal.ofBits_zero_f32]; exact IsReal.zero

/-- The single-precision word `0x3F800000` (one) denotes a real number. -/
theorem isReal_ofBits_one : IsReal (Ideal.ofBits .f32 0x3F800000#32) := by
  show IsReal (Ideal.ieee 8 23 (0x3F800000#32 : BitVec 32))
  exact isReal_ieee_of_exponent_ne 8 23 (0x3F800000#32 : BitVec 32) (by decide)

/-- The single-precision word `0xBF000000` (minus one half) denotes a real number. -/
theorem isReal_ofBits_neg_half : IsReal (Ideal.ofBits .f32 0xBF000000#32) := by
  show IsReal (Ideal.ieee 8 23 (0xBF000000#32 : BitVec 32))
  exact isReal_ieee_of_exponent_ne 8 23 (0xBF000000#32 : BitVec 32) (by decide)

/-- The power of a real base to a real exponent is real (the real power function). -/
theorem isReal_pow (x y : EReal) : IsReal x → IsReal y → IsReal (Ideal.pow x y) := by
  rintro ⟨a, rfl⟩ ⟨b, rfl⟩; exact ⟨Real.rpow a b, rfl⟩

/-- An accumulating scatter of real updates into a real array is real at every entry: the entry plus a finite sum of
    the updates that land on it. -/
theorem isReal_scatterAdd {s si su : Shape} (d : ScatterDims s si su) {w : Nat} (x : s.Idx → EReal) (idx : IVec si w)
    (u : su.Idx → EReal) (hx : ∀ i, IsReal (x i)) (hu : ∀ j, IsReal (u j)) (i : s.Idx) :
    IsReal (Host.scatterAdd (F := Ideal) (φ := .f32) d x idx u i) := by
  show IsReal (x i + ∑ j ∈ Finset.univ.filter (fun j => d.resultIdx? j idx = some i), u j)
  exact IsReal.add _ _ (hx i) (IsReal.sum _ _ fun j _ => hu j)

/-- A gather of a real array is real at every entry: each entry of the result is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A selection between two real entries is real. -/
theorem isReal_select {s : Shape} (c : IVec s 1) (a b : s.Idx → EReal) (i : s.Idx) :
    IsReal (a i) → IsReal (b i) → IsReal (select c a b i) := by
  intro ha hb
  rw [select_apply]
  unfold Scalar.select
  split <;> assumption

/-- Over real entries a dot product scaled by a real number is the dot product of the scaled first factor:
    (∑ₖ aₖ·bₖ)·c = ∑ₖ (aₖ·c)·bₖ. -/
theorem dot_scale {K : ℕ} (a b : Fin K → EReal) (c : EReal) (ha : ∀ k, IsReal (a k)) (hb : ∀ k, IsReal (b k))
    (hc : IsReal c) : (∑ k, a k * b k) * c = ∑ k, (a k * c) * b k := by
  choose a' ha' using ha
  choose b' hb' using hb
  obtain ⟨c', rfl⟩ := hc
  have e1 : ∀ k, a k * b k = ((a' k * b' k : ℝ) : EReal) := fun k => by rw [ha' k, hb' k, EReal.coe_mul]
  have e2 : ∀ k, (a k * (c' : EReal)) * b k = ((a' k * c' * b' k : ℝ) : EReal) := fun k => by
    rw [ha' k, hb' k, EReal.coe_mul, EReal.coe_mul]
  simp only [e1, e2]
  rw [← coe_sum, ← coe_sum, ← EReal.coe_mul, Finset.sum_mul]
  congr 1
  exact Finset.sum_congr rfl fun k _ => by ring

/-- A dot product of real entries is real. -/
theorem isReal_dot {K : ℕ} (a b : Fin K → EReal) : (∀ k, IsReal (a k)) → (∀ k, IsReal (b k)) →
    IsReal (∑ k, a k * b k) :=
  fun ha hb => IsReal.sum _ _ fun k _ => IsReal.mul _ _ (ha k) (hb k)

end Idealize.ShloMosaic.LibFinite

end
-- ==== Proof.LibSumBlocks.lean ====
/-
  A sum over consecutive blocks is the sum over the whole range.

  For a function f on the natural numbers with values in an additive commutative monoid, adding up, block by
  block, the n values f (n * kb), ..., f (n * kb + n - 1) of each of the B blocks kb = 0, ..., B - 1 gives the
  sum of f over all of 0, ..., B * n - 1.
-/
import Mathlib.Algebra.BigOperators.Fin

namespace Cert.Hamming

/-- The sum over `B` consecutive blocks of length `n` (block `kb` holding the arguments `n * kb + j`, `j < n`)
is the sum over the whole range `0, ..., B * n - 1`. -/
theorem sum_blocks {M : Type*} [AddCommMonoid M] (B n : ℕ) (f : ℕ → M) :
    ∑ kb ∈ Finset.range B, ∑ j : Fin n, f (n * kb + j.val) = ∑ d : Fin (B * n), f d.val := by
  rw [Fin.sum_univ_eq_sum_range (fun d => f d) (B * n)]
  induction B with
  | zero => simp
  | succ B ih =>
    rw [Finset.sum_range_succ, ih, Nat.succ_mul, Finset.sum_range_add,
      Fin.sum_univ_eq_sum_range (fun j => f (n * B + j)) n, Nat.mul_comm n B]

/-- Ten blocks of length 1024 make up the range `0, ..., 10239`. -/
theorem sum_blocks_10_1024 {M : Type*} [AddCommMonoid M] (f : ℕ → M) :
    ∑ kb ∈ Finset.range 10, ∑ j : Fin 1024, f (1024 * kb + j.val) = ∑ d : Fin 10240, f d.val :=
  sum_blocks 10 1024 f

end Cert.Hamming
-- ==== Proof.Stat.lean ====
/-
  Column statistics over real entries.

  For a finite family of real numbers f with N members and c = N: the mean of the squared deviations from the mean
  is the mean of the squares less the square of the mean,
      (∑ (f n - μ)²) / c = (∑ f n²) / c - μ²,   μ = (∑ f n) / c,
  read on the extended reals with their division; it fails at infinite entries, so the entries are assumed real.
  And a sum taken in blocks: if row 8t of a table holds the sum of block t of f (R members) and the other rows hold
  zero, the sum of the table's rows is the sum of f.
-/
import Mathlib.Algebra.BigOperators.Fin
import Mathlib.Tactic.Ring
import Mathlib.Tactic.FieldSimp
import Idealize.ShloMosaic.PureOps.Ideal
import proofs.«146382_j51762945852037_2_alg».proof.Proof.LibFinite
import proofs.«146382_j51762945852037_2_alg».proof.Proof.LibSumBlocks

noncomputable section

namespace Cert.BatchStat

open Idealize.ShloMosaic Idealize.ShloMosaic.LibFinite
open scoped BigOperators

/-- The single-precision word `0x47435000` denotes the real number 50000. -/
theorem ofBits_50000 : Ideal.ofBits .f32 0x47435000#32 = ((50000 : ℝ) : EReal) := by
  simp [Ideal.ofBits, Ideal.ieee, -EReal.coe_mul]; norm_num

/-- The quotient of a real number by a nonzero real number is the real quotient. -/
theorem div_real (a c : ℝ) (hc : c ≠ 0) : Ideal.div (a : EReal) (c : EReal) = ((a / c : ℝ) : EReal) := by
  rw [Ideal.div_coe hc, ← EReal.coe_mul, mul_one_div]

/-- The quotient of a real number by a nonzero real number is real. -/
theorem isReal_div (x : EReal) (c : ℝ) (hc : c ≠ 0) (hx : IsReal x) : IsReal (Ideal.div x (c : EReal)) := by
  obtain ⟨a, rfl⟩ := hx
  exact ⟨a / c, div_real a c hc⟩

/-- Over real numbers: the sum of squared deviations from the mean, divided by the count, is the mean of the squares
    less the square of the mean. -/
theorem real_var (N : ℕ) (g : Fin N → ℝ) (c : ℝ) (hc : (N : ℝ) = c) (hc0 : c ≠ 0) :
    (∑ n, (g n - (∑ n, g n) / c) * (g n - (∑ n, g n) / c)) / c
      = (∑ n, g n * g n) / c - (∑ n, g n) / c * ((∑ n, g n) / c) := by
  set S := ∑ n, g n with hS
  have e : ∑ n, (g n - S / c) * (g n - S / c) = (∑ n, g n * g n) - 2 * (S / c) * S + c * (S / c * (S / c)) := by
    have h : ∀ n, (g n - S / c) * (g n - S / c) = g n * g n - 2 * (S / c) * g n + S / c * (S / c) := fun n => by ring
    simp only [h, Finset.sum_add_distrib, Finset.sum_sub_distrib, ← Finset.mul_sum, Finset.sum_const, Finset.card_univ,
      Fintype.card_fin, nsmul_eq_mul, hc, ← hS]
    ring
  rw [e]
  field_simp
  ring

/-- THE VARIANCE, TWO WAYS: over real entries the mean of the squared deviations from the mean (the divisor spelt
    `c - 0`) is the mean of the squares less the square of the mean. -/
theorem var_identity {N : ℕ} (f : Fin N → EReal) (hf : ∀ n, IsReal (f n)) (c : ℝ) (hc : (N : ℝ) = c) (hc0 : c ≠ 0) :
    Ideal.div (0 + ∑ n, (f n - Ideal.div (0 + ∑ n, f n) (c : EReal)) * (f n - Ideal.div (0 + ∑ n, f n) (c : EReal))) (c : EReal)
      = Ideal.div (0 + ∑ n, f n * f n) (c : EReal)
        - Ideal.div (0 + ∑ n, f n) (c : EReal) * Ideal.div (0 + ∑ n, f n) (c : EReal) := by
  choose g hg using hf
  obtain rfl : f = fun n => (g n : EReal) := funext hg
  simp only [zero_add]
  rw [← coe_sum, div_real _ _ hc0]
  have h1 : ∀ n, ((g n : EReal) - (((∑ n, g n) / c : ℝ) : EReal)) * ((g n : EReal) - (((∑ n, g n) / c : ℝ) : EReal))
      = (((g n - (∑ n, g n) / c) * (g n - (∑ n, g n) / c) : ℝ) : EReal) := fun n => by
    rw [← EReal.coe_sub, ← EReal.coe_mul]
  have h2 : ∀ n, (g n : EReal) * (g n : EReal) = ((g n * g n : ℝ) : EReal) := fun n => (EReal.coe_mul _ _).symm
  simp only [h1, h2]
  rw [← coe_sum, ← coe_sum, div_real _ _ hc0, div_real _ _ hc0, ← EReal.coe_mul, ← EReal.coe_sub]
  exact congrArg _ (real_var N g c hc hc0)

/-- A SUM TAKEN IN BLOCKS: if entry `8t` of `P` is the sum of block `t` of `g` (the `R` members `R t, …, R t + R - 1`)
    and the seven entries after it are zero, for each of `T` blocks, the sum of `P` is the sum of `g`. -/
theorem sum_rows_of_blocks (T R : ℕ) (g : ℕ → EReal) (P : ℕ → EReal)
    (h0 : ∀ t, t < T → P (8 * t) = ∑ i : Fin R, g (R * t + i.val))
    (h1 : ∀ t, t < T → ∀ j : Fin 8, j.val ≠ 0 → P (8 * t + j.val) = 0) :
    ∑ r : Fin (T * 8), P r.val = ∑ n : Fin (T * R), g n.val := by
  rw [← Cert.Hamming.sum_blocks T 8 P, ← Cert.Hamming.sum_blocks T R g]
  refine Finset.sum_congr rfl fun t ht => ?_
  have ht' : t < T := Finset.mem_range.mp ht
  rw [Finset.sum_eq_single (0 : Fin 8) (fun j _ hj => h1 t ht' j (fun h => hj (Fin.ext h)))
    (fun h => absurd (Finset.mem_univ _) h)]
  simpa using h0 t ht'

end Cert.BatchStat

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.KStat.lean ====
/- The kernel program's column statistics read at an index: the row of column means, from a table of per-block column
   sums, is the plain column mean of the table; the row of column variances is the mean of the squares less the square
   of the mean; and, over real entries, the mean of the squared deviations is that same difference. -/
import proofs.«146382_j51762945852037_2_alg».proof.Proof.KEntry
import proofs.«146382_j51762945852037_2_alg».proof.Proof.Spec
import proofs.«146382_j51762945852037_2_alg».proof.Proof.Stat
import proofs.«146382_j51762945852037_2_alg».proof.Proof.LibColumn
import proofs.«146382_j51762945852037_2_alg».proof.Proof.LibColReduce
import proofs.«146382_j51762945852037_2_alg».proof.Proof.LibFinite
import Idealize.ShloMosaic.PureOps.Ideal.Laws
import Idealize.ShloMosaic.Lib.ValueIdx

noncomputable section

open scoped BigOperators

namespace Cert.KernelIdeal.KValue

open Cert.KernelIdeal Cert.KernelIdeal.Gen
open Idealize.ShloMosaic Idealize.ShloMosaic.ValueIdx

/-- The host's sum down column q of a 200-row table from the zero word: zero plus the sum over the rows. -/
theorem hostColSumK_apply (x : FVec Ideal S200x512 .f32) (q : Fin 512) :
    Host.reduceAdd x (constant (F := Ideal) S_ .f32 0x00000000#32) reducesTo_S200x512_S512_d0 h_S_ (ix1 q)
      = 0 + ∑ r : Fin 200, x (ix2 r q) := by
  have hR : S200x512.Reduces [(0 : Fin 2)] S512 := by decide
  refine (Ideal.hostReduceAdd_single reducesTo_S200x512_S512_d0 hR x _ (ix1 q)).trans ?_
  rw [show (constant (F := Ideal) S_ .f32 0x00000000#32) (Shape.Idx.first h_S_) = Ideal.ofBits .f32 0x00000000#32 from rfl,
    Ideal.ofBits_zero_f32]
  exact congrArg (fun s : EReal => 0 + s) (Finset.sum_congr rfl fun k _ => congrArg x (Cert.LibColReduce.lift_col hR q k))

/-- Entry (0, q) of the row of column means is the plain column mean of the table, the divisor 50000. -/
theorem meanK_apply (ps : FVec Ideal S200x512 .f32) (q : Fin 512) :
    meanK ps (ix2 (0 : Fin 1) q) = Cert.Spec.meanV ps 50000 q := by
  show Ideal.div (broadcastInDim S1x512 ![1] bcast_S512_S1x512_1
        (Host.reduceAdd ps (constant (F := Ideal) S_ .f32 0x00000000#32) reducesTo_S200x512_S512_d0 h_S_) (ix2 (0 : Fin 1) q))
      (Ideal.ofBits .f32 0x47435000#32) = _
  rw [Cert.LibColumn.bcastInDim_b_1b_apply (b := 512) _ bcast_S512_S1x512_1 (0 : Fin 1) q, hostColSumK_apply,
    Cert.BatchStat.ofBits_50000]
  rfl

/-- Entry (0, q) of the row of column variances: the mean of the table of squares less the square of the mean. -/
theorem varK_apply (ps psq : FVec Ideal S200x512 .f32) (q : Fin 512) :
    varK ps psq (ix2 (0 : Fin 1) q)
      = Cert.Spec.meanV psq 50000 q - Cert.Spec.meanV ps 50000 q * Cert.Spec.meanV ps 50000 q := by
  show meanK psq (ix2 (0 : Fin 1) q) - meanK ps (ix2 (0 : Fin 1) q) * meanK ps (ix2 (0 : Fin 1) q) = _
  rw [meanK_apply, meanK_apply]

/-- Over real entries the two spellings of column q's variance agree: the mean of the squared deviations from the mean
    is the mean of the squares less the square of the mean. -/
theorem varDev_eq_varSq (H : (⟨2, ![50000, 512]⟩ : Shape).Idx → EReal)
    (hH : ∀ i, Idealize.ShloMosaic.LibFinite.IsReal (H i)) (q : Fin 512) :
    Cert.Spec.varDevV H 50000 q = Cert.Spec.varSqV H 50000 q := by
  unfold Cert.Spec.varDevV Cert.Spec.varSqV Cert.Spec.meanV
  exact Cert.BatchStat.var_identity (fun n => H (ix2 n q)) (fun n => hH _) 50000 (by norm_num) (by norm_num)

end Cert.KernelIdeal.KValue

end
-- ==== Proof.KSum.lean ====
/- The table of per-block column sums adds up to the column sums: row 8t of the table holds the sum of rows
   2000t … 2000t + 1999 of the array and the other rows hold zero, so the table's rows, added down a column, give the
   array's rows added down that column. -/
import proofs.«146382_j51762945852037_2_alg».proof.Proof.KArr0
import proofs.«146382_j51762945852037_2_alg».proof.Proof.Stat
import Idealize.ShloMosaic.Lib.ValueIdx

noncomputable section

open scoped BigOperators

namespace Cert.KernelIdeal.KValue

open Cert.KernelIdeal Cert.KernelIdeal.Gen
open Idealize.ShloMosaic Idealize.ShloMosaic.ValueIdx

/-- The rows of the table of per-block column sums add up, down column q, to the column's sum over all the rows. -/
theorem sum_PSA (H : S50000x512.Idx → EReal) (q : Fin 512) :
    ∑ r : Fin 200, PSA H (ix2 r q) = ∑ n : Fin 50000, H (ix2 n q) := by
  have h0 : ∀ t, t < 25 → (fun r : ℕ => if h : r < 200 then PSA H (ix2 (⟨r, h⟩ : Fin 200) q) else 0) (8 * t)
      = ∑ i : Fin 2000, colN H q (2000 * t + i.val) := by
    intro t ht
    have h8 : 8 * t < 200 := by omega
    show (if h : 8 * t < 200 then PSA H (ix2 (⟨8 * t, h⟩ : Fin 200) q) else 0) = _
    rw [dif_pos h8]
    show (if (8 * t) % 8 = 0 then ∑ k : Fin 2000, colN H q (2000 * ((8 * t) / 8) + k.val) else 0) = _
    rw [if_pos (Nat.mul_mod_right 8 t), Nat.mul_div_cancel_left t (by norm_num : 0 < 8)]
  have h1 : ∀ t, t < 25 → ∀ j : Fin 8, j.val ≠ 0 →
      (fun r : ℕ => if h : r < 200 then PSA H (ix2 (⟨r, h⟩ : Fin 200) q) else 0) (8 * t + j.val) = 0 := by
    intro t ht j hj
    have hjl := j.isLt
    have h8 : 8 * t + j.val < 200 := by omega
    show (if h : 8 * t + j.val < 200 then PSA H (ix2 (⟨8 * t + j.val, h⟩ : Fin 200) q) else 0) = _
    rw [dif_pos h8]
    show (if (8 * t + j.val) % 8 = 0 then ∑ k : Fin 2000, colN H q (2000 * ((8 * t + j.val) / 8) + k.val) else 0) = _
    rw [if_neg (by omega)]
  have key := Cert.BatchStat.sum_rows_of_blocks 25 2000 (colN H q)
    (fun r : ℕ => if h : r < 200 then PSA H (ix2 (⟨r, h⟩ : Fin 200) q) else 0) h0 h1
  have eL : ∑ r : Fin 200, PSA H (ix2 r q)
      = ∑ r : Fin (25 * 8), (fun r : ℕ => if h : r < 200 then PSA H (ix2 (⟨r, h⟩ : Fin 200) q) else 0) r.val :=
    Finset.sum_congr rfl fun r _ => by
      show PSA H (ix2 r q) = (if h : r.val < 200 then PSA H (ix2 (⟨r.val, h⟩ : Fin 200) q) else 0)
      rw [dif_pos r.isLt]
  have eR : ∑ n : Fin (25 * 2000), colN H q n.val = ∑ n : Fin 50000, H (ix2 n q) :=
    Finset.sum_congr rfl fun n _ => by
      show (if hn : n.val < 50000 then H (ix2 (⟨n.val, hn⟩ : Fin 50000) q) else 0) = H (ix2 n q)
      rw [dif_pos n.isLt]
  exact eL.trans (key.trans eR)

end Cert.KernelIdeal.KValue

end
-- ==== Proof.RefRun.lean ====
/- The reference function's run, read back: its operations as one list (the three outlined functions' bodies at their
   calls), the function equal to the straight line of that list, and the line's run — every weakly fair execution
   terminates with the result buffer at the operations' composed term of the arguments' launch contents, the arguments
   unchanged. The composed term is stated through named stages, each the term of a run of consecutive operations. -/
import proofs.«146382_j51762945852037_2_alg».proof.Proof.Gen.ReferenceIdeal
import Idealize.ShloMosaic.Lib.StableHlo.Run
import Idealize.ShloMosaic.PureOps.Ideal
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The reference's 79 operations, in order: the function's own, with the three outlined functions' bodies
    (the variance, the select it ends in, the rectifier) listed at their calls over each call's own buffers. -/
abbrev ops : List (HloOp τ sig (Elt F)) :=
  [
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg2 main_v4 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v5 (broadcastInDim S800000 ![] bcast_S_S800000 : (⟨S_, .i32⟩ : BufTy).Contents (Elt F) → (⟨S800000, .i32⟩ : BufTy).Contents (Elt F)),
    StableHlo.binary main_v3 main_v5 main_v6 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v7 (broadcastInDim S800000 ![] bcast_S_S800000 : (⟨S_, .i32⟩ : BufTy).Contents (Elt F) → (⟨S800000, .i32⟩ : BufTy).Contents (Elt F)),
    StableHlo.binary main_v3 main_v7 main_v8 (addi : (⟨S800000, .i32⟩ : BufTy).Contents (Elt F) → (⟨S800000, .i32⟩ : BufTy).Contents (Elt F) → (⟨S800000, .i32⟩ : BufTy).Contents (Elt F)),
    StableHlo.ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v9 main_v10 (broadcastInDim S800000x1 ![0] bcast_S800000_S800000x1_0 : (⟨S800000, .i32⟩ : BufTy).Contents (Elt F) → (⟨S800000x1, .i32⟩ : BufTy).Contents (Elt F)),
    StableHlo.binary main_arg0 main_v10 main_v11 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v4 main_v12 (broadcastInDim S800000x256 ![0, 1] bcast_S800000x1_S800000x256_0_1 : (⟨S800000x1, .f32⟩ : BufTy).Contents (Elt F) → (⟨S800000x256, .f32⟩ : BufTy).Contents (Elt F)),
    StableHlo.binary main_v12 main_v11 main_v13 (mulf : (⟨S800000x256, .f32⟩ : BufTy).Contents (Elt F) → (⟨S800000x256, .f32⟩ : BufTy).Contents (Elt F) → (⟨S800000x256, .f32⟩ : BufTy).Contents (Elt F)),
    StableHlo.nullary main_cst (constant S_ .f32 0x00000000#32),
    StableHlo.unary main_cst main_v14 (broadcastInDim S50000x256 ![] bcast_S_S50000x256 : (⟨S_, .f32⟩ : BufTy).Contents (Elt F) → (⟨S50000x256, .f32⟩ : BufTy).Contents (Elt F)),
    StableHlo.unary main_v1 main_v15 (broadcastInDim S800000x1 ![0] bcast_S800000_S800000x1_0 : (⟨S800000, .i32⟩ : BufTy).Contents (Elt F) → (⟨S800000x1, .i32⟩ : BufTy).Contents (Elt F)),
    StableHlo.ternary main_v14 main_v15 main_v13 main_v16 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_1 (constant S_ .f32 0x3F800000#32),
    StableHlo.unary main_cst_1 main_v17 (broadcastInDim S50000x256 ![] bcast_S_S50000x256 : (⟨S_, .f32⟩ : BufTy).Contents (Elt F) → (⟨S50000x256, .f32⟩ : BufTy).Contents (Elt F)),
    StableHlo.binary main_v17 main_arg0 main_v18 (mulf : (⟨S50000x256, .f32⟩ : BufTy).Contents (Elt F) → (⟨S50000x256, .f32⟩ : BufTy).Contents (Elt F) → (⟨S50000x256, .f32⟩ : BufTy).Contents (Elt F)),
    StableHlo.binary main_v18 main_v16 main_v19 (addf : (⟨S50000x256, .f32⟩ : BufTy).Contents (Elt F) → (⟨S50000x256, .f32⟩ : BufTy).Contents (Elt F) → (⟨S50000x256, .f32⟩ : BufTy).Contents (Elt F)),
    StableHlo.binary main_v19 main_arg3 main_v20 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.unary main_arg4 main_v21 (broadcastInDim S1x512 ![1] bcast_S512_S1x512_1 : (⟨S512, .f32⟩ : BufTy).Contents (Elt F) → (⟨S1x512, .f32⟩ : BufTy).Contents (Elt F)),
    StableHlo.unary main_v21 main_v22 (broadcastInDim S50000x512 ![0, 1] bcast_S1x512_S50000x512_0_1 : (⟨S1x512, .f32⟩ : BufTy).Contents (Elt F) → (⟨S50000x512, .f32⟩ : BufTy).Contents (Elt F)),
    StableHlo.binary main_v20 main_v22 main_v23 (addf : (⟨S50000x512, .f32⟩ : BufTy).Contents (Elt F) → (⟨S50000x512, .f32⟩ : BufTy).Contents (Elt F) → (⟨S50000x512, .f32⟩ : BufTy).Contents (Elt F)),
    StableHlo.nullary main_cst_2 (constant S_ .f32 0x00000000#32),
    StableHlo.binary main_v23 main_cst_2 main_v24 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_3 (constant S_ .f32 0x47435000#32),
    StableHlo.unary main_cst_3 main_v25 (broadcastInDim S512 ![] bcast_S_S512 : (⟨S_, .f32⟩ : BufTy).Contents (Elt F) → (⟨S512, .f32⟩ : BufTy).Contents (Elt F)),
    StableHlo.binary main_v24 main_v25 main_v26 (Host.divf : (⟨S512, .f32⟩ : BufTy).Contents (Elt F) → (⟨S512, .f32⟩ : BufTy).Contents (Elt F) → (⟨S512, .f32⟩ : BufTy).Contents (Elt F)),
    StableHlo.nullary main_c_4 (constantI S_ 32 0#32),
    StableHlo.TRef.nullary main_call0.cst (constant S_ .f32 0x00000000#32),
    StableHlo.TRef.binary (.of main_v23 : TRef sig ⟨S50000x512, .f32⟩) main_call0.cst main_call0.v0 (fun x v => Host.reduceAdd x v reducesTo_S50000x512_S512_d0 h_S_),
    StableHlo.TRef.unary main_call0.v0 main_call0.v1 (broadcastInDim S1x512 ![1] bcast_S512_S1x512_1),
    StableHlo.TRef.nullary main_call0.cst_0 (constant S_ .f32 0x47435000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S50000x512 ![0, 1] bcast_S1x512_S50000x512_0_1),
    StableHlo.TRef.binary (.of main_v23 : TRef sig ⟨S50000x512, .f32⟩) main_call0.v4 main_call0.v5 subf,
    StableHlo.TRef.binary main_call0.v5 main_call0.v5 main_call0.v6 mulf,
    StableHlo.TRef.unary (.of main_c_4 : TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b),
    StableHlo.unary main_v26 main_v28 (broadcastInDim S1x512 ![1] bcast_S512_S1x512_1 : (⟨S512, .f32⟩ : BufTy).Contents (Elt F) → (⟨S1x512, .f32⟩ : BufTy).Contents (Elt F)),
    StableHlo.unary main_v28 main_v29 (broadcastInDim S50000x512 ![0, 1] bcast_S1x512_S50000x512_0_1 : (⟨S1x512, .f32⟩ : BufTy).Contents (Elt F) → (⟨S50000x512, .f32⟩ : BufTy).Contents (Elt F)),
    StableHlo.binary main_v23 main_v29 main_v30 (subf : (⟨S50000x512, .f32⟩ : BufTy).Contents (Elt F) → (⟨S50000x512, .f32⟩ : BufTy).Contents (Elt F) → (⟨S50000x512, .f32⟩ : BufTy).Contents (Elt F)),
    StableHlo.nullary main_cst_5 (constant S_ .f32 0x3727C5AC#32),
    StableHlo.unary main_cst_5 main_v31 (broadcastInDim S512 ![] bcast_S_S512 : (⟨S_, .f32⟩ : BufTy).Contents (Elt F) → (⟨S512, .f32⟩ : BufTy).Contents (Elt F)),
    StableHlo.binary main_v27 main_v31 main_v32 (addf : (⟨S512, .f32⟩ : BufTy).Contents (Elt F) → (⟨S512, .f32⟩ : BufTy).Contents (Elt F) → (⟨S512, .f32⟩ : BufTy).Contents (Elt F)),
    StableHlo.unary main_v32 main_v33 (Host.rsqrt : (⟨S512, .f32⟩ : BufTy).Contents (Elt F) → (⟨S512, .f32⟩ : BufTy).Contents (Elt F)),
    StableHlo.unary main_v33 main_v34 (broadcastInDim S1x512 ![1] bcast_S512_S1x512_1 : (⟨S512, .f32⟩ : BufTy).Contents (Elt F) → (⟨S1x512, .f32⟩ : BufTy).Contents (Elt F)),
    StableHlo.unary main_v34 main_v35 (broadcastInDim S50000x512 ![0, 1] bcast_S1x512_S50000x512_0_1 : (⟨S1x512, .f32⟩ : BufTy).Contents (Elt F) → (⟨S50000x512, .f32⟩ : BufTy).Contents (Elt F)),
    StableHlo.binary main_v30 main_v35 main_v36 (mulf : (⟨S50000x512, .f32⟩ : BufTy).Contents (Elt F) → (⟨S50000x512, .f32⟩ : BufTy).Contents (Elt F) → (⟨S50000x512, .f32⟩ : BufTy).Contents (Elt F)),
    StableHlo.unary main_arg5 main_v37 (broadcastInDim S1x512 ![1] bcast_S512_S1x512_1 : (⟨S512, .f32⟩ : BufTy).Contents (Elt F) → (⟨S1x512, .f32⟩ : BufTy).Contents (Elt F)),
    StableHlo.unary main_v37 main_v38 (broadcastInDim S50000x512 ![0, 1] bcast_S1x512_S50000x512_0_1 : (⟨S1x512, .f32⟩ : BufTy).Contents (Elt F) → (⟨S50000x512, .f32⟩ : BufTy).Contents (Elt F)),
    StableHlo.binary main_v36 main_v38 main_v39 (mulf : (⟨S50000x512, .f32⟩ : BufTy).Contents (Elt F) → (⟨S50000x512, .f32⟩ : BufTy).Contents (Elt F) → (⟨S50000x512, .f32⟩ : BufTy).Contents (Elt F)),
    StableHlo.unary main_arg6 main_v40 (broadcastInDim S1x512 ![1] bcast_S512_S1x512_1 : (⟨S512, .f32⟩ : BufTy).Contents (Elt F) → (⟨S1x512, .f32⟩ : BufTy).Contents (Elt F)),
    StableHlo.unary main_v40 main_v41 (broadcastInDim S50000x512 ![0, 1] bcast_S1x512_S50000x512_0_1 : (⟨S1x512, .f32⟩ : BufTy).Contents (Elt F) → (⟨S50000x512, .f32⟩ : BufTy).Contents (Elt F)),
    StableHlo.binary main_v39 main_v41 main_v42 (addf : (⟨S50000x512, .f32⟩ : BufTy).Contents (Elt F) → (⟨S50000x512, .f32⟩ : BufTy).Contents (Elt F) → (⟨S50000x512, .f32⟩ : BufTy).Contents (Elt F)),
    StableHlo.TRef.nullary main_call1.cst (constant S_ .f32 0x00000000#32),
    StableHlo.TRef.unary main_call1.cst main_call1.v0 (broadcastInDim S50000x512 ![] bcast_S_S50000x512),
    StableHlo.TRef.binary (.of main_v42 : TRef sig ⟨S50000x512, .f32⟩) main_call1.v0 main_call1.v1 maximumf,
    StableHlo.binary main_v43 main_arg7 main_v44 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.unary main_arg8 main_v45 (broadcastInDim S1x512 ![1] bcast_S512_S1x512_1 : (⟨S512, .f32⟩ : BufTy).Contents (Elt F) → (⟨S1x512, .f32⟩ : BufTy).Contents (Elt F)),
    StableHlo.unary main_v45 main_v46 (broadcastInDim S50000x512 ![0, 1] bcast_S1x512_S50000x512_0_1 : (⟨S1x512, .f32⟩ : BufTy).Contents (Elt F) → (⟨S50000x512, .f32⟩ : BufTy).Contents (Elt F)),
    StableHlo.binary main_v44 main_v46 main_v47 (addf : (⟨S50000x512, .f32⟩ : BufTy).Contents (Elt F) → (⟨S50000x512, .f32⟩ : BufTy).Contents (Elt F) → (⟨S50000x512, .f32⟩ : BufTy).Contents (Elt F)) ]

set_option maxRecDepth 8192 in
set_option maxHeartbeats 400000 in
/-- The function is that straight line: the outlined functions' bodies run at their calls, and sequencing
    reassociates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., nullary_bufs_sub .., unary_bufs_sub .., binary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩

/-- The buffers the operations write, in order: one each. -/
abbrev opsW : List (Ref sig .tc) :=
  [main_v0, main_v1, main_v2, main_v3, main_v4, main_c, main_v5, main_v6,
    main_c_0, main_v7, main_v8, main_v9, main_v10, main_v11, main_v12, main_v13,
    main_cst, main_v14, main_v15, main_v16, main_cst_1, main_v17, main_v18, main_v19,
    main_v20, main_v21, main_v22, main_v23, main_cst_2, main_v24, main_cst_3, main_v25,
    main_v26, main_c_4, main_call0_cst, main_call0_v0, main_call0_v1, main_call0_cst_0, main_call0_v2, main_call0_v3,
    main_call0_v4, main_call0_v5, main_call0_v6, main_call0_v7, main_call0_cst_1, main_call0_v8, main_call0_cst_2, main_call0_v9,
    main_call0_v10, main_call0_v11, main_call0_cst_3, main_call0_v12, main_call0_cst_4, main_call0_call0_v0, main_call0_call0_v1, main_v27,
    main_v28, main_v29, main_v30, main_cst_5, main_v31, main_v32, main_v33, main_v34,
    main_v35, main_v36, main_v37, main_v38, main_v39, main_v40, main_v41, main_v42,
    main_call1_cst, main_call1_v0, main_v43, main_v44, main_v45, main_v46, main_v47]

set_option maxRecDepth 16384 in
set_option maxHeartbeats 1000000 in
theorem ops_writes : (ops : List (HloOp τ sig (Elt F))).Forall fun op =>
    op.writes ⊆ (opsW.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))

/-- A buffer the line does not write keeps its contents through it. -/
theorem ops_keep (V : Valuation τ sig (Elt F)) (r : Ref sig .tc) (h : r ∉ opsW) :
    after ops V (Proc.devRef .tc r) = V (Proc.devRef .tc r) :=
  after_of_writes_sub ops V ops_writes h

/-! ## The stages of the value

Each stage is the composed term of a run of consecutive operations, as a function of the arrays the run reads. -/

/-- A length-512 vector laid along every row of a 50000 × 512 array (through the shape 1 × 512). -/
def rowB (v : FVec Ideal S512 .f32) : FVec Ideal S50000x512 .f32 :=
  broadcastInDim S50000x512 ![0, 1] bcast_S1x512_S50000x512_0_1 (broadcastInDim S1x512 ![1] bcast_S512_S1x512_1 v)

/-- Row 0 of the edge table, as a vector: the rows the messages are added into. -/
def edgeRow0 (a1 : IVec S2x800000 32) : IVec S800000 32 :=
  shapeCast S800000 (extractStridedSlice S1x800000 ![0, 0] a1 slices_S2x800000_S1x800000_0_0) shapeCasts_S1x800000_S800000

/-- Row 1 of the edge table, as a vector: the rows the messages are read from. -/
def edgeRow1 (a1 : IVec S2x800000 32) : IVec S800000 32 :=
  shapeCast S800000 (extractStridedSlice S1x800000 ![1, 0] a1 slices_S2x800000_S1x800000_1_0) shapeCasts_S1x800000_S800000

/-- The gather's start indices: row 1 of the edge table with 50000 added to each negative entry, as a column. -/
def srcIdx (a1 : IVec S2x800000 32) : IVec S800000x1 32 :=
  broadcastInDim S800000x1 ![0] bcast_S800000_S800000x1_0
    (select (cmpi .slt (edgeRow1 a1) (broadcastInDim S800000 ![] bcast_S_S800000 (constantI S_ 32 0#32)))
      (addi (edgeRow1 a1) (broadcastInDim S800000 ![] bcast_S_S800000 (constantI S_ 32 50000#32)))
      (edgeRow1 a1))

/-- The scatter's indices: row 0 of the edge table, as a column. -/
def dstIdx (a1 : IVec S2x800000 32) : IVec S800000x1 32 :=
  broadcastInDim S800000x1 ![0] bcast_S800000_S800000x1_0 (edgeRow0 a1)

/-- The messages: edge e's weight times the gathered row of its source. -/
def msgT (a0 : FVec Ideal S50000x256 .f32) (a1 : IVec S2x800000 32) (a2 : FVec Ideal S800000 .f32) : FVec Ideal S800000x256 .f32 :=
  mulf (broadcastInDim S800000x256 ![0, 1] bcast_S800000x1_S800000x256_0_1 (broadcastInDim S800000x1 ![0] bcast_S800000_S800000x1_0 a2))
    (Host.gather gather_S50000x256_S800000x1_S800000x256_1_0_n_n_0_1_1256 a0 (srcIdx a1))

/-- The aggregate (the value of %16): the messages added, from zero, into the rows row 0 of the edge table names. -/
def aggT (a0 : FVec Ideal S50000x256 .f32) (a1 : IVec S2x800000 32) (a2 : FVec Ideal S800000 .f32) : FVec Ideal S50000x256 .f32 :=
  Host.scatterAdd scatter_S50000x256_S800000x1_S800000x256_1_0_0_1
    (broadcastInDim S50000x256 ![] bcast_S_S50000x256 (constant S_ .f32 0x00000000#32))
    (dstIdx a1) (msgT a0 a1 a2)

/-- The first layer (the value of %23): (1 · x + aggregate) · W₁ + b₁. -/
def h1T (a0 : FVec Ideal S50000x256 .f32) (a1 : IVec S2x800000 32) (a2 : FVec Ideal S800000 .f32)
    (a3 : FVec Ideal S256x512 .f32) (a4 : FVec Ideal S512 .f32) : FVec Ideal S50000x512 .f32 :=
  addf (Host.dotGeneral dot_S50000x256_S256x512_S50000x512_1_0_0_1_n_n none
      (addf (mulf (broadcastInDim S50000x256 ![] bcast_S_S50000x256 (constant S_ .f32 0x3F800000#32)) a0) (aggT a0 a1 a2)) a3)
    (rowB a4)

/-- The column means (the value of %26): the sum over axis 0 from zero, divided by the constant 50000. -/
def meanT (h1 : FVec Ideal S50000x512 .f32) : FVec Ideal S512 .f32 :=
  Host.divf (Host.reduceAdd h1 (constant S_ .f32 0x00000000#32) reducesTo_S50000x512_S512_d0 h_S_)
    (broadcastInDim S512 ![] bcast_S_S512 (constant S_ .f32 0x47435000#32))

/-- The variance function's own column means, with a unit leading axis. -/
def varMean (h1 : FVec Ideal S50000x512 .f32) : FVec Ideal S1x512 .f32 :=
  Host.divf (broadcastInDim S1x512 ![1] bcast_S512_S1x512_1
      (Host.reduceAdd h1 (constant S_ .f32 0x00000000#32) reducesTo_S50000x512_S512_d0 h_S_))
    (broadcastInDim S1x512 ![] bcast_S_S1x512 (constant S_ .f32 0x47435000#32))

/-- The deviations from those means. -/
def varDev (h1 : FVec Ideal S50000x512 .f32) : FVec Ideal S50000x512 .f32 :=
  subf h1 (broadcastInDim S50000x512 ![0, 1] bcast_S1x512_S50000x512_0_1 (varMean h1))

/-- The variance's divisor: the constant 50000 minus the converted correction 0. -/
def varDen : FVec Ideal S_ .f32 :=
  subf (constant S_ .f32 0x47435000#32) (sitofp .f32 (constantI S_ 32 0#32))

/-- The variance's guard: that divisor compared (greater than) with the constant 0. -/
def varGuard : IVec S_ 1 :=
  cmpf .ogt varDen (constant S_ .f32 0x00000000#32)

/-- The quotient: the sum over axis 0, from zero, of the squared deviations, divided by the divisor. -/
def varQuot (h1 : FVec Ideal S50000x512 .f32) : FVec Ideal S512 .f32 :=
  Host.divf (Host.reduceAdd (mulf (varDev h1) (varDev h1)) (constant S_ .f32 0x00000000#32) reducesTo_S50000x512_S512_d0 h_S_)
    (broadcastInDim S512 ![] bcast_S_S512 varDen)

/-- The column variances (the value of %27): the quotient where the guard holds, the constant 0x7FC00000 elsewhere. -/
def varT (h1 : FVec Ideal S50000x512 .f32) : FVec Ideal S512 .f32 :=
  select (broadcastInDim S512 ![] bcast_S_S512 varGuard) (varQuot h1)
    (broadcastInDim S512 ![] bcast_S_S512 (constant S_ .f32 0x7FC00000#32))

/-- The normalised array (the value of %36): (h − mean) · rsqrt(var + 0x3727C5AC). -/
def normT (h1 : FVec Ideal S50000x512 .f32) (mean var : FVec Ideal S512 .f32) : FVec Ideal S50000x512 .f32 :=
  mulf (subf h1 (rowB mean))
    (rowB (Host.rsqrt (addf var (broadcastInDim S512 ![] bcast_S_S512 (constant S_ .f32 0x3727C5AC#32)))))

/-- The activation (the value of %43): the maximum with zero of normalised · γ + β. -/
def actT (h1 : FVec Ideal S50000x512 .f32) (mean var a5 a6 : FVec Ideal S512 .f32) : FVec Ideal S50000x512 .f32 :=
  maximumf (addf (mulf (normT h1 mean var) (rowB a5)) (rowB a6))
    (broadcastInDim S50000x512 ![] bcast_S_S50000x512 (constant S_ .f32 0x00000000#32))

/-- The second layer (the value of %47): activation · W₂ + b₂. -/
def outT (h1 : FVec Ideal S50000x512 .f32) (mean var a5 a6 : FVec Ideal S512 .f32) (a7 : FVec Ideal S512x512 .f32)
    (a8 : FVec Ideal S512 .f32) : FVec Ideal S50000x512 .f32 :=
  addf (Host.dotGeneral dot_S50000x512_S512x512_S50000x512_1_0_0_1_n_n none (actT h1 mean var a5 a6) a7) (rowB a8)

/-- The function's value: the composed term of its nine arguments. -/
def result (a0 : FVec Ideal S50000x256 .f32) (a1 : IVec S2x800000 32) (a2 : FVec Ideal S800000 .f32)
    (a3 : FVec Ideal S256x512 .f32) (a4 a5 a6 : FVec Ideal S512 .f32) (a7 : FVec Ideal S512x512 .f32)
    (a8 : FVec Ideal S512 .f32) : FVec Ideal S50000x512 .f32 :=
  outT (h1T a0 a1 a2 a3 a4) (meanT (h1T a0 a1 a2 a3 a4)) (varT (h1T a0 a1 a2 a3 a4)) a5 a6 a7 a8

attribute [local irreducible] Host.reduceAdd Host.gather Host.scatterAdd Host.divf Host.rsqrt broadcastInDim shapeCast
  extractStridedSlice in
set_option maxRecDepth 16384 in
set_option maxHeartbeats 1000000 in
theorem out_eq (V : Valuation τ sig (Elt Ideal)) :
    after ops V (Proc.devRef .tc main_v47)
      = result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  after_results_simp
  rfl

/-- On every device, at the extended reals, from any memory with zero counters: every weakly fair execution of the
    function terminates with the result buffer at `result` of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v47).trans (out_eq (launchContents m c)),
        (h c main_arg0).trans (ops_keep (launchContents m c) main_arg0 (by decide)),
        (h c main_arg1).trans (ops_keep (launchContents m c) main_arg1 (by decide)),
        (h c main_arg2).trans (ops_keep (launchContents m c) main_arg2 (by decide)),
        (h c main_arg3).trans (ops_keep (launchContents m c) main_arg3 (by decide)),
        (h c main_arg4).trans (ops_keep (launchContents m c) main_arg4 (by decide)),
        (h c main_arg5).trans (ops_keep (launchContents m c) main_arg5 (by decide)),
        (h c main_arg6).trans (ops_keep (launchContents m c) main_arg6 (by decide)),
        (h c main_arg7).trans (ops_keep (launchContents m c) main_arg7 (by decide)),
        (h c main_arg8).trans (ops_keep (launchContents m c) main_arg8 (by decide))⟩)
    (run_seq scopedRefs_eq scopedSems_eq defs main (fun _ => ops) main_eq (fun _ => ops_sub) m ρ)

/-! ## The variance's guard at the extended reals -/

/-- The f32 pattern 0x47435000 is the real 50000. -/
theorem ofBits_50000_f32 : Ideal.ofBits .f32 0x47435000#32 = ((50000 : ℝ) : EReal) := by
  simp [Ideal.ofBits, Ideal.ieee, -EReal.coe_mul]; norm_num

/-- The variance's divisor is 50000 − 0 = 50000. -/
theorem varDen_apply (i : S_.Idx) : varDen i = ((50000 : ℝ) : EReal) := by
  show Ideal.ofBits .f32 0x47435000#32 - ((((0#32 : BitVec 32).toInt : ℤ) : ℝ) : EReal) = _
  rw [ofBits_50000_f32]
  simp

/-- At the extended reals the variance's guard holds: 50000 − 0 > 0. -/
theorem varGuard_apply (i : S_.Idx) : varGuard i = 1#1 := by
  show Ideal.cmp .ogt (varDen i) (Ideal.ofBits .f32 0x00000000#32) = 1#1
  rw [varDen_apply, Ideal.ofBits_zero_f32]
  have h : (0 : EReal) < ((50000 : ℝ) : EReal) := by exact_mod_cast (by norm_num : (0 : ℝ) < 50000)
  simp [Ideal.cmp, h]

/-- So the variance is the quotient: the select takes its first branch at every index. -/
theorem varT_eq_quot (h1 : FVec Ideal S50000x512 .f32) : varT h1 = varQuot h1 := by
  funext j
  show Scalar.select (varGuard _) (varQuot h1 j) _ = varQuot h1 j
  rw [varGuard_apply]
  rfl

end Cert.ReferenceIdeal.RefValue

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«146382_j51762945852037_2_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.RefRead.lean ====
/- The reference's stages read at an index: each stage of the composed term, at an entry, is the plain formula of the
   network at that entry — the first linear layer, the column mean, the column variance, and the second half. -/
import proofs.«146382_j51762945852037_2_alg».proof.Proof.RefRun
import proofs.«146382_j51762945852037_2_alg».proof.Proof.Spec
import proofs.«146382_j51762945852037_2_alg».proof.Proof.Agg
import proofs.«146382_j51762945852037_2_alg».proof.Proof.LibHostDot
import proofs.«146382_j51762945852037_2_alg».proof.Proof.LibColumn
import proofs.«146382_j51762945852037_2_alg».proof.Proof.LibColReduce
import Idealize.ShloMosaic.PureOps.Ideal.Laws
import Idealize.ShloMosaic.Lib.ValueIdx
import Idealize.ShloMosaic.Lib.IdealHost

noncomputable section

open scoped BigOperators

namespace Cert.ReferenceIdeal.RefRead

open Cert.ReferenceIdeal Cert.ReferenceIdeal.Gen Cert.ReferenceIdeal.RefValue
open Idealize.ShloMosaic Idealize.ShloMosaic.ValueIdx

/-- The reference's neighbour sum is the kernel program's: the same chain of operations on the same arrays. -/
theorem aggT_eq (a0 : FVec Ideal S50000x256 .f32) (a1 : IVec S2x800000 32) (a2 : FVec Ideal S800000 .f32) :
    aggT a0 a1 a2 = Cert.KernelIdeal.KValue.aggK a0 a1 a2 := rfl

/-! ## Small reads -/

/-- A length-512 vector laid along every row reads, at (n, q), its entry q. -/
theorem rowB_apply (v : FVec Ideal S512 .f32) (n : Fin 50000) (q : Fin 512) : rowB v (ix2 n q) = v (ix1 q) :=
  (Cert.LibColumn.bcastInDim_1b_ab_apply (a := 50000) (b := 512) _ bcast_S1x512_S50000x512_0_1 n q).trans
    (Cert.LibColumn.bcastInDim_b_1b_apply (b := 512) v bcast_S512_S1x512_1 0 q)

/-- The host's sum down column q from the zero word: zero plus the sum over the rows. -/
theorem hostColSum_apply (x : FVec Ideal S50000x512 .f32) (q : Fin 512) :
    Host.reduceAdd x (constant (F := Ideal) S_ .f32 0x00000000#32) reducesTo_S50000x512_S512_d0 h_S_ (ix1 q)
      = 0 + ∑ n : Fin 50000, x (ix2 n q) := by
  have hR : S50000x512.Reduces [(0 : Fin 2)] S512 := by decide
  refine (Ideal.hostReduceAdd_single reducesTo_S50000x512_S512_d0 hR x _ (ix1 q)).trans ?_
  rw [show (constant (F := Ideal) S_ .f32 0x00000000#32) (Shape.Idx.first h_S_) = Ideal.ofBits .f32 0x00000000#32 from rfl,
    Ideal.ofBits_zero_f32]
  exact congrArg (fun s : EReal => 0 + s) (Finset.sum_congr rfl fun k _ => congrArg x (Cert.LibColReduce.lift_col hR q k))

/-! ## The first linear layer -/

/-- Entry (n, q) of the first layer is the plain formula's. -/
theorem h1T_apply (a0 : FVec Ideal S50000x256 .f32) (a1 : IVec S2x800000 32) (a2 : FVec Ideal S800000 .f32)
    (a3 : FVec Ideal S256x512 .f32) (a4 : FVec Ideal S512 .f32) (n : Fin 50000) (q : Fin 512) :
    h1T a0 a1 a2 a3 a4 (ix2 n q) = Cert.Spec.linV a0 (aggT a0 a1 a2) a3 (fun q => a4 (ix1 q)) n q := by
  show Host.dotGeneral dot_S50000x256_S256x512_S50000x512_1_0_0_1_n_n none
        (addf (mulf (broadcastInDim S50000x256 ![] bcast_S_S50000x256 (constant (F := Ideal) S_ .f32 0x3F800000#32)) a0) (aggT a0 a1 a2)) a3 (ix2 n q)
      + rowB a4 (ix2 n q) = _
  rw [rowB_apply]
  refine congrArg (fun s : EReal => s + a4 (ix1 q)) ?_
  exact Cert.LibHostDot.hostDot_apply (R := 50000) (K := 256) (C := 512)
    dot_S50000x256_S256x512_S50000x512_1_0_0_1_n_n_wf none _ a3 n q

/-! ## The column mean -/

/-- Entry q of the column means is the plain formula's, the divisor 50000. -/
theorem meanT_apply (h : FVec Ideal S50000x512 .f32) (q : Fin 512) : meanT h (ix1 q) = Cert.Spec.meanV h 50000 q := by
  show Ideal.div (Host.reduceAdd h (constant (F := Ideal) S_ .f32 0x00000000#32) reducesTo_S50000x512_S512_d0 h_S_ (ix1 q))
      (Ideal.ofBits .f32 0x47435000#32) = _
  rw [hostColSum_apply, ofBits_50000_f32]
  rfl

/-! ## The column variance -/

/-- The variance function's own mean, at (0, q), is the same column mean. -/
theorem varMean_apply (h : FVec Ideal S50000x512 .f32) (u : Fin 1) (q : Fin 512) :
    varMean h (ix2 u q) = Cert.Spec.meanV h 50000 q := by
  show Ideal.div (broadcastInDim S1x512 ![1] bcast_S512_S1x512_1
        (Host.reduceAdd h (constant (F := Ideal) S_ .f32 0x00000000#32) reducesTo_S50000x512_S512_d0 h_S_) (ix2 u q))
      (Ideal.ofBits .f32 0x47435000#32) = _
  rw [Cert.LibColumn.bcastInDim_b_1b_apply (b := 512) _ bcast_S512_S1x512_1 u q, hostColSum_apply, ofBits_50000_f32]
  rfl

/-- The deviation at (n, q): the entry less its column's mean. -/
theorem varDev_apply (h : FVec Ideal S50000x512 .f32) (n : Fin 50000) (q : Fin 512) :
    varDev h (ix2 n q) = h (ix2 n q) - Cert.Spec.meanV h 50000 q := by
  show h (ix2 n q) - broadcastInDim S50000x512 ![0, 1] bcast_S1x512_S50000x512_0_1 (varMean h) (ix2 n q) = _
  rw [Cert.LibColumn.bcastInDim_1b_ab_apply (a := 50000) (b := 512) _ bcast_S1x512_S50000x512_0_1 n q, varMean_apply]

/-- Entry q of the column variances is the plain formula's (the mean of the squared deviations), the divisor 50000. -/
theorem varT_apply (h : FVec Ideal S50000x512 .f32) (q : Fin 512) : varT h (ix1 q) = Cert.Spec.varDevV h 50000 q := by
  rw [varT_eq_quot]
  show Ideal.div (Host.reduceAdd (mulf (varDev h) (varDev h)) (constant (F := Ideal) S_ .f32 0x00000000#32)
        reducesTo_S50000x512_S512_d0 h_S_ (ix1 q)) (varDen ix0) = _
  rw [hostColSum_apply, varDen_apply]
  refine congrArg (fun s : EReal => Ideal.div (0 + s) ((50000 : ℝ) : EReal)) (Finset.sum_congr rfl fun n _ => ?_)
  show varDev h (ix2 n q) * varDev h (ix2 n q) = _
  rw [varDev_apply]

/-! ## The second half -/

/-- The activation at (n, k): the normalised, scaled and shifted entry, clipped below at zero. -/
theorem actT_apply (h : FVec Ideal S50000x512 .f32) (mean var a5 a6 : FVec Ideal S512 .f32) (n : Fin 50000) (k : Fin 512) :
    actT h mean var a5 a6 (ix2 n k)
      = max (((h (ix2 n k) - mean (ix1 k)) * Ideal.rsqrt (var (ix1 k) + Ideal.ofBits .f32 0x3727C5AC#32)) * a5 (ix1 k) + a6 (ix1 k))
          (Ideal.ofBits .f32 0x00000000#32) := by
  show max (((h (ix2 n k) - rowB mean (ix2 n k))
        * rowB (Host.rsqrt (addf var (broadcastInDim S512 ![] bcast_S_S512 (constant (F := Ideal) S_ .f32 0x3727C5AC#32)))) (ix2 n k))
        * rowB a5 (ix2 n k) + rowB a6 (ix2 n k)) (Ideal.ofBits .f32 0x00000000#32) = _
  rw [rowB_apply, rowB_apply, rowB_apply, rowB_apply]
  rfl

/-- Entry (n, q) of the second half is the plain formula's. -/
theorem outT_apply (h : FVec Ideal S50000x512 .f32) (mean var a5 a6 : FVec Ideal S512 .f32) (a7 : FVec Ideal S512x512 .f32)
    (a8 : FVec Ideal S512 .f32) (n : Fin 50000) (q : Fin 512) :
    outT h mean var a5 a6 a7 a8 (ix2 n q)
      = Cert.Spec.postV h (fun k => var (ix1 k)) (fun k => mean (ix1 k)) (fun k => a5 (ix1 k)) (fun k => a6 (ix1 k)) a7
          (fun k => a8 (ix1 k)) n q := by
  show Host.dotGeneral dot_S50000x512_S512x512_S50000x512_1_0_0_1_n_n none (actT h mean var a5 a6) a7 (ix2 n q)
      + rowB a8 (ix2 n q) = _
  rw [rowB_apply]
  refine congrArg (fun s : EReal => s + a8 (ix1 q)) ?_
  refine (Cert.LibHostDot.hostDot_apply (R := 50000) (K := 512) (C := 512)
    dot_S50000x512_S512x512_S50000x512_1_0_0_1_n_n_wf none (actT h mean var a5 a6) a7 n q).trans ?_
  exact Finset.sum_congr rfl fun k _ => by rw [actT_apply]

end Cert.ReferenceIdeal.RefRead

end
-- ==== Proof.FiniteAgg.lean ====
import proofs.«146382_j51762945852037_2_alg».proof.Proof.LibFinite
import proofs.«146382_j51762945852037_2_alg».proof.Proof.Agg

/-!
  Arrays of real numbers under the layout and entrywise operations, read at an index: a broadcast, an entrywise
  product or sum, the constant arrays of zeros and of ones, a dot product and a sum-reduction keep every entry a
  real number; so the weighted neighbour sum of real features with real weights is real at every index.
-/

noncomputable section

namespace Cert.Finite

open Idealize.ShloMosaic Idealize.ShloMosaic.LibFinite

/-- A broadcast of an array of real numbers is real at every index: each entry of the result is an entry of the
    operand. -/
theorem isReal_broadcastInDim {s t : Shape} (dims : Fin s.rank → Fin t.rank) (h : s.BroadcastsInDim t dims)
    (x : s.Idx → EReal) (hx : ∀ k, IsReal (x k)) (j : t.Idx) : IsReal (broadcastInDim t dims h x j) := hx _

/-- An entrywise product of two arrays of real numbers is real at every index. -/
theorem isReal_mulf {s : Shape} (a b : FVec Ideal s .f32) (ha : ∀ i, IsReal (a i)) (hb : ∀ i, IsReal (b i))
    (i : s.Idx) : IsReal (mulf a b i) := IsReal.mul _ _ (ha i) (hb i)

/-- An entrywise sum of two arrays of real numbers is real at every index. -/
theorem isReal_addf {s : Shape} (a b : FVec Ideal s .f32) (ha : ∀ i, IsReal (a i)) (hb : ∀ i, IsReal (b i))
    (i : s.Idx) : IsReal (addf a b i) := IsReal.add _ _ (ha i) (hb i)

/-- The constant array of zeros is real at every index. -/
theorem isReal_constant_zero {s : Shape} (i : s.Idx) : IsReal (constant (F := Ideal) s .f32 0x00000000#32 i) :=
  isReal_ofBits_zero

/-- The constant array of ones is real at every index. -/
theorem isReal_constant_one {s : Shape} (i : s.Idx) : IsReal (constant (F := Ideal) s .f32 0x3F800000#32 i) :=
  isReal_ofBits_one

/-- A host dot product of arrays of real numbers is real at every index: a finite sum of products onto zero. -/
theorem isReal_dotGeneral {sl sr so : Shape} (d : DotDims sl sr so) (prec : Option ContractPrecision)
    (lhs : FVec Ideal sl .f32) (rhs : FVec Ideal sr .f32) (hl : ∀ i, IsReal (lhs i)) (hr : ∀ i, IsReal (rhs i))
    (j : so.Idx) : IsReal (Host.dotGeneral (F := Ideal) d prec lhs rhs j) := by
  show IsReal ((0 : EReal) + ∑ k : d.contr.Idx, lhs (d.lhsIdx j k) * rhs (d.rhsIdx j k))
  exact IsReal.add _ _ IsReal.zero (IsReal.sum _ _ fun k _ => IsReal.mul _ _ (hl _) (hr _))

/-- A host sum-reduction of an array of real numbers from a real initial value is real at every index. -/
theorem isReal_reduceAdd {s t u : Shape} {axes : List (Fin s.rank)} (x : FVec Ideal s .f32) (init : u.Idx → EReal)
    (h : s.ReducesTo axes t) (hu : 0 < u.numel) (hx : ∀ i, IsReal (x i)) (hi : ∀ k, IsReal (init k)) (j : t.Idx) :
    IsReal (Host.reduceAdd (F := Ideal) (φ := .f32) x init h hu j) := by
  show IsReal (init (Shape.Idx.first hu) + ∑ i ∈ Finset.univ.filter (fun i => h.drop i = j), x i)
  exact IsReal.add _ _ (hi _) (IsReal.sum _ _ fun i _ => hx i)

open Cert.KernelIdeal in
/-- The weighted neighbour sum of an array of real numbers with real weights is real at every index: each entry is
    zero plus a finite sum of products of a weight and a gathered entry. -/
theorem aggK_real (a0 : FVec Ideal S50000x256 .f32) (a1 : IVec S2x800000 32) (a2 : FVec Ideal S800000 .f32)
    (h0 : ∀ i, IsReal (a0 i)) (h2 : ∀ i, IsReal (a2 i)) : ∀ i, IsReal (Cert.KernelIdeal.KValue.aggK a0 a1 a2 i) := by
  intro i
  unfold Cert.KernelIdeal.KValue.aggK
  refine isReal_scatterAdd _ _ _ _ (fun k => ?_) (fun j => ?_) i
  · exact isReal_broadcastInDim _ _ _ (fun _ => isReal_constant_zero _) k
  · refine isReal_mulf _ _ (fun k => ?_) (fun k => ?_) j
    · exact isReal_broadcastInDim _ _ _ (fun k' => isReal_broadcastInDim _ _ _ h2 k') k
    · exact isReal_gather _ _ _ h0 k

end Cert.Finite

end
-- ==== Proof.Bridge.lean ====
/-
  The two programs compute one function.

  Both take the weighted neighbour sum, add the features, and apply a linear layer; both then centre each column by
  its mean, scale by the reciprocal square root of its variance plus a constant, scale and shift, clip at zero and
  apply a second linear layer. They differ in how the column statistics are taken. One sums each block of 2000 rows
  into row 8t of a table, totals the table, and forms the variance as the mean of the squares less the square of the
  mean; the other sums the column directly and forms the mean of the squared deviations. The block sums regroup a
  finite sum, and over real entries the two variances agree; every entry is real when the inputs are.
-/
import proofs.«146382_j51762945852037_2_alg».proof.Proof.KArr0
import proofs.«146382_j51762945852037_2_alg».proof.Proof.KBodyB
import proofs.«146382_j51762945852037_2_alg».proof.Proof.KStat
import proofs.«146382_j51762945852037_2_alg».proof.Proof.KSum
import proofs.«146382_j51762945852037_2_alg».proof.Proof.RefRead
import proofs.«146382_j51762945852037_2_alg».proof.Proof.FiniteAgg
import proofs.«146382_j51762945852037_2_alg».proof.Proof.Spec
import Idealize.ShloMosaic.Lib.ValueLayout

set_option maxRecDepth 16384

noncomputable section

namespace Cert.Bridge

open Idealize.ShloMosaic Idealize.ShloMosaic.ValueIdx Idealize.ShloMosaic.LibFinite
open Cert.KernelIdeal Cert.KernelIdeal.Gen Cert.KernelIdeal.KValue Cert.Spec
open scoped BigOperators

variable (a0 : FVec Ideal S50000x256 .f32) (a1 : IVec S2x800000 32) (a2 : FVec Ideal S800000 .f32)
  (a3 : FVec Ideal S256x512 .f32) (a4 a5 a6 : FVec Ideal S512 .f32) (a7 : FVec Ideal S512x512 .f32) (a8 : FVec Ideal S512 .f32)

/-- The first linear layer's array as the tiled program holds it. -/
def hK : S50000x512.Idx → EReal :=
  H1A a0 (aggK a0 a1 a2) (truncf .bf16 a3 bitsLt_bf16_f32) (shapeCast S1x512 a4 shapeCasts_S512_S1x512)

/-- The tiled program's result array. -/
def kout : S50000x512.Idx → EReal := fun i =>
  KValue.post (R := 50000) (hK a0 a1 a2 a3 a4) (varK (PSA (hK a0 a1 a2 a3 a4)) (PSA (sqA (hK a0 a1 a2 a3 a4)))) (meanK (PSA (hK a0 a1 a2 a3 a4)))
    (shapeCast S1x512 a5 shapeCasts_S512_S1x512) (shapeCast S1x512 a6 shapeCasts_S512_S1x512)
    (truncf .bf16 a7 bitsLt_bf16_f32) (shapeCast S1x512 a8 shapeCasts_S512_S1x512) (i 0) (i 1)

/-- Its linear layer entry by entry. -/
theorem hK_apply (n : Fin 50000) (k : Fin 512) :
    (hK a0 a1 a2 a3 a4) (ix2 n k) = linV a0 (aggK a0 a1 a2) a3 (fun q => a4 (ix1 q)) n k := by
  show lin (R := 50000) a0 (aggK a0 a1 a2) (truncf .bf16 a3 bitsLt_bf16_f32) (shapeCast S1x512 a4 shapeCasts_S512_S1x512) n k = _
  unfold lin linV
  rw [shapeCast_a_1a_apply a4 shapeCasts_S512_S1x512 (0 : Fin 1) k]
  rfl

/-- It is the other program's linear layer. -/
theorem hK_eq_h1T : (hK a0 a1 a2 a3 a4) = Cert.ReferenceIdeal.RefValue.h1T a0 a1 a2 a3 a4 := by
  funext i
  obtain ⟨n, k, rfl⟩ : ∃ (n : Fin 50000) (k : Fin 512), i = ix2 n k := ⟨i 0, i 1, eq_ix2 i⟩
  rw [hK_apply, Cert.ReferenceIdeal.RefRead.h1T_apply, Cert.ReferenceIdeal.RefRead.aggT_eq]

/-- Every entry of the linear layer is a real number when the inputs are. -/
theorem hK_real (h0 : ∀ i, IsReal (a0 i)) (h2 : ∀ i, IsReal (a2 i)) (h3 : ∀ i, IsReal (a3 i)) (h4 : ∀ i, IsReal (a4 i)) :
    ∀ i, IsReal ((hK a0 a1 a2 a3 a4) i) := by
  intro i
  obtain ⟨n, k, rfl⟩ : ∃ (n : Fin 50000) (k : Fin 512), i = ix2 n k := ⟨i 0, i 1, eq_ix2 i⟩
  rw [hK_apply]
  unfold linV
  exact IsReal.add _ _ (IsReal.sum _ _ fun j _ => IsReal.mul _ _
    (IsReal.add _ _ (IsReal.mul _ _ isReal_ofBits_one (h0 _)) (Cert.Finite.aggK_real a0 a1 a2 h0 h2 _)) (h3 _)) (h4 _)

/-- The mean row from the table of block sums is the column mean. -/
theorem mean_eq (H : S50000x512.Idx → EReal) (k : Fin 512) : meanK (PSA H) (ix2 (0 : Fin 1) k) = meanV H 50000 k := by
  rw [meanK_apply]
  unfold meanV
  rw [sum_PSA]

/-- The variance row from the two tables is, over real entries, the mean of the squared deviations. -/
theorem var_eq (H : S50000x512.Idx → EReal) (hH : ∀ i, IsReal (H i)) (k : Fin 512) :
    varK (PSA H) (PSA (sqA H)) (ix2 (0 : Fin 1) k) = varDevV H 50000 k := by
  rw [varK_apply, varDev_eq_varSq H hH k]
  unfold varSqV meanV
  rw [sum_PSA, sum_PSA]
  rfl

/-- THE BRIDGE: with real inputs the tiled program's result array is the other program's, index by index. -/
theorem kout_eq (h0 : ∀ i, IsReal (a0 i)) (h2 : ∀ i, IsReal (a2 i)) (h3 : ∀ i, IsReal (a3 i)) (h4 : ∀ i, IsReal (a4 i)) :
    kout a0 a1 a2 a3 a4 a5 a6 a7 a8 = Cert.ReferenceIdeal.RefValue.result a0 a1 a2 a3 a4 a5 a6 a7 a8 := by
  funext i
  obtain ⟨n, q, rfl⟩ : ∃ (n : Fin 50000) (q : Fin 512), i = ix2 n q := ⟨i 0, i 1, eq_ix2 i⟩
  have hH := hK_real a0 a1 a2 a3 a4 h0 h2 h3 h4
  have e : kout a0 a1 a2 a3 a4 a5 a6 a7 a8 (ix2 n q)
      = postV (hK a0 a1 a2 a3 a4) (fun k => varDevV (hK a0 a1 a2 a3 a4) 50000 k) (fun k => meanV (hK a0 a1 a2 a3 a4) 50000 k)
          (fun k => a5 (ix1 k)) (fun k => a6 (ix1 k)) a7 (fun k => a8 (ix1 k)) n q := by
    show KValue.post (R := 50000) (hK a0 a1 a2 a3 a4) _ _ _ _ _ _ n q = _
    unfold KValue.post postV
    simp only [mean_eq, var_eq (hK a0 a1 a2 a3 a4) hH, shapeCast_a_1a_apply]
    rfl
  rw [e]
  unfold Cert.ReferenceIdeal.RefValue.result
  rw [Cert.ReferenceIdeal.RefRead.outT_apply, ← hK_eq_h1T]
  simp only [Cert.ReferenceIdeal.RefRead.meanT_apply, Cert.ReferenceIdeal.RefRead.varT_apply]

end Cert.Bridge

end
-- ==== Proof.KOut.lean ====
/-
  The tiled program's result as one function of its nine arguments: the last segment boundary's contents at the
  result buffer, read back through the second sweep's blocks, the statistics rows formed between the sweeps, the
  first sweep's blocks, and the operations before it, down to the launch memory.
-/
import proofs.«146382_j51762945852037_2_alg».proof.Proof.KRun
import proofs.«146382_j51762945852037_2_alg».proof.Proof.KEntry
import proofs.«146382_j51762945852037_2_alg».proof.Proof.KArr0
import proofs.«146382_j51762945852037_2_alg».proof.Proof.KArr1
import proofs.«146382_j51762945852037_2_alg».proof.Proof.Bridge
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

open Cert.Bridge

/-- What the program leaves in its result array, as one function of the nine argument arrays at launch: the second
    sweep's blocks over the first sweep's arrays and the statistics rows the host forms from its two tables. -/
theorem W4_out (c : Dev nD) : W4 m ρ c (Proc.devRef .tc main_v34)
    = kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 7).trans ?_
  rw [final1_7 (V3 m ρ) c]
  rw [entry1_0 m ρ c, entry1_1 m ρ c, entry1_2 m ρ c, entry1_3 m ρ c, entry1_4 m ρ c, entry1_5 m ρ c, entry1_6 m ρ c]
  rw [final0_4 (V1 m ρ) c, final0_5 (V1 m ρ) c, final0_6 (V1 m ρ) c]
  rw [entry0_0 m ρ c, entry0_1 m ρ c, entry0_2 m ρ c, entry0_3 m ρ c]
  rfl

/-- The run with the result read: every weakly fair execution terminates, nothing faulting, the result array at the
    network's function of the argument arrays, the arguments unchanged. -/
theorem run_value : θ_run defs (onTc (τ := τ) (main (F := Ideal))) ⟨m, fun _ => 0, ρ⟩ (fun r => ∀ c : Dev nD,
      r.2.mem ((c.tc : Thread nD τ).loc main_v34) = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W4_out m ρ c), (h c).2⟩) (run_out m ρ)

end Cert.KernelIdeal.KValue
end
-- ==== Proof.Finite.lean ====
import proofs.«146382_j51762945852037_2_alg».proof.Pre_finite_inputs
import proofs.«146382_j51762945852037_2_alg».proof.Proof.Gen.Pre_finite_inputs
import proofs.«146382_j51762945852037_2_alg».proof.Proof.LibFinite
import Idealize.ShloMosaic.Lib.ReduceAll

/-!
  From "every float input is finite" to "every entry of every float input is a real number".

  The precondition is the conjunction, over the eight float inputs, of "all entries have absolute value below +∞".
  An extended real whose absolute value is below +∞ is neither infinity, so it is the coercion of a real number.
-/

noncomputable section

namespace Cert.Finite

open Idealize.ShloMosaic Idealize.ShloMosaic.LibFinite

/-- The single-precision word `0x7F800000` denotes +∞. -/
theorem ofBits_inf : Ideal.ofBits .f32 0x7F800000#32 = (⊤ : EReal) := by
  simp [Ideal.ofBits, Ideal.ieee]

/-- An extended real whose absolute value max(x, -x) is below +∞ is a real number. -/
theorem isReal_of_abs_lt_top (x : EReal) (h : max x (-x) < ⊤) : IsReal x := by
  induction x using EReal.rec with
  | bot => simp at h
  | coe r => exact ⟨r, rfl⟩
  | top => simp at h

/-- The shape with no axes has one index. -/
instance subsingleton_scalarIdx : Subsingleton (⟨0, ![]⟩ : Shape).Idx := ⟨fun a b => funext fun d => d.elim0⟩

/-- If "all entries of a have absolute value below +∞" holds, every entry of a is a real number. -/
theorem all_real {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (e : Host.reduce IntOp.andi
          (cmpf .olt (Host.absf a) (broadcastInDim s ![] hb (constant (F := Ideal) ⟨0, ![]⟩ .f32 0x7F800000#32)))
          (constantI ⟨0, ![]⟩ 1 1#1) hr hu j = 1#1) (i : s.Idx) : IsReal (a i) := by
  have h1 := Host.reduce_andi_all _ _ hr hu j e i
  have h2 : Ideal.cmp .olt (max (a i) (-(a i))) (Ideal.ofBits .f32 0x7F800000#32) = 1#1 := h1
  rw [ofBits_inf] at h2
  apply isReal_of_abs_lt_top
  by_contra hn
  simp [Ideal.cmp, hn] at h2

/-- A conjunction of one-bit arrays read at an index is the conjunction of the entries. -/
theorem andi_apply {s : Shape} {w : ℕ} (x y : IVec s w) (i : s.Idx) : andi x y i = IntOp.andi (x i) (y i) := rfl

open Cert.Pre_finite_inputs in
/-- Under the precondition "every float input is finite", every entry of every float input is a real number. -/
theorem inputs_real [Cert.Pre_finite_inputs.Facts]
    (a0 : FVec Ideal S50000x256 .f32) (a1 : IVec S2x800000 32) (a2 : FVec Ideal S800000 .f32)
    (a3 : FVec Ideal S256x512 .f32) (a4 a5 a6 : FVec Ideal S512 .f32) (a7 : FVec Ideal S512x512 .f32)
    (a8 : FVec Ideal S512 .f32)
    (h : Cert.Pre_finite_inputs.fn (F := Ideal) a0 a1 a2 a3 a4 a5 a6 a7 a8 = fun _ => 1#1) :
    (∀ i, IsReal (a0 i)) ∧ (∀ i, IsReal (a2 i)) ∧ (∀ i, IsReal (a3 i)) ∧ (∀ i, IsReal (a4 i)) ∧
      (∀ i, IsReal (a5 i)) ∧ (∀ i, IsReal (a6 i)) ∧ (∀ i, IsReal (a7 i)) ∧ (∀ i, IsReal (a8 i)) := by
  have h0 := congrFun h ValueIdx.ix0
  dsimp only [Cert.Pre_finite_inputs.fn, Cert.Pre_finite_inputs.fn_part1, Cert.Pre_finite_inputs.fn_part2] at h0
  simp only [andi_apply, IntOp.andi_eq_one] at h0
  obtain ⟨⟨⟨⟨⟨⟨⟨e0, e2⟩, e3⟩, e4⟩, e5⟩, e6⟩, e7⟩, e8⟩ := h0
  exact ⟨all_real a0 _ _ _ _ e0, all_real a2 _ _ _ _ e2, all_real a3 _ _ _ _ e3, all_real a4 _ _ _ _ e4,
    all_real a5 _ _ _ _ e5, all_real a6 _ _ _ _ e6, all_real a7 _ _ _ _ e7, all_real a8 _ _ _ _ e8⟩

end Cert.Finite

end
-- ==== Proof.lean ====
/-
  A graph layer and a two-layer perceptron with batch normalisation, tiled and untiled.

  Both programs form, for every node, its feature row plus the weighted sum of its neighbours' rows, apply a linear
  layer, normalise every column by its mean and variance over all 50000 nodes, scale and shift, clip at zero, and apply
  a second linear layer. The tiled program does the two linear layers in sweeps over blocks of 2000 rows; its first
  sweep also leaves, per block, the column sums and the column sums of squares, from which the column means and
  variances are formed between the sweeps as E[h²] - E[h]². The plain program forms the variance as E[(h - E[h])²].

  On the extended reals a change of number format is the identity and a sum may be regrouped, so the linear layers and
  the means agree outright. The two variances agree for real entries only, which is where the precondition is used:
  finite inputs make every entry of the first linear layer a real number.
-/
import proofs.«146382_j51762945852037_2_alg».proof.Defs
import proofs.«146382_j51762945852037_2_alg».proof.Proof.Gen.Kernel
import proofs.«146382_j51762945852037_2_alg».proof.Proof.Gen.Kernel.Skeleton
import proofs.«146382_j51762945852037_2_alg».proof.Proof.Gen.Kernel.Launch
import proofs.«146382_j51762945852037_2_alg».proof.Proof.Gen.Kernel.Points
import proofs.«146382_j51762945852037_2_alg».proof.Proof.Gen.Kernel.Frame
import proofs.«146382_j51762945852037_2_alg».proof.Proof.Gen.KernelIdeal
import proofs.«146382_j51762945852037_2_alg».proof.Proof.Gen.KernelIdeal.Skeleton
import proofs.«146382_j51762945852037_2_alg».proof.Proof.Gen.KernelIdeal.Launch
import proofs.«146382_j51762945852037_2_alg».proof.Proof.Gen.KernelIdeal.Points
import proofs.«146382_j51762945852037_2_alg».proof.Proof.Gen.KernelIdeal.Frame
import proofs.«146382_j51762945852037_2_alg».proof.Proof.Gen.ReferenceIdeal
import proofs.«146382_j51762945852037_2_alg».proof.Proof.Gen.Pre_finite_inputs
import proofs.«146382_j51762945852037_2_alg».proof.Proof.KOut
import proofs.«146382_j51762945852037_2_alg».proof.Proof.Bridge
import proofs.«146382_j51762945852037_2_alg».proof.Proof.RefRun
import proofs.«146382_j51762945852037_2_alg».proof.Proof.Finite
import Idealize.ShloMosaic.Adequacy
import Idealize.ShloMosaic.Init

noncomputable section

namespace Cert.Proof

open Idealize.ShloMosaic Idealize.SL.Sem

/-- The tiled program, word by word, runs and leaves its arguments as they were. -/
theorem frame_k : Cert.frame_Kernel := fun m ρ _ => Cert.Kernel.Gen.frame m ρ

/-- So does it read over the extended reals. -/
theorem frame_ki : Cert.frame_KernelIdeal := fun m ρ _ => Cert.KernelIdeal.Gen.frame m ρ

/-- The plain program runs and leaves its arguments as they were: its run, the result forgotten. -/
theorem frame_ri : Cert.frame_ReferenceIdeal := fun m ρ _ =>
  (θ_run Cert.ReferenceIdeal.defs _ _).mono (fun _ h c => (h c).2) (Cert.ReferenceIdeal.RefValue.run m ρ)

/-- Reading the tiled program over the extended reals rewrote none of its operations. -/
theorem preserves : Cert.preserves_Kernel_KernelIdeal := trivial

/-- From memories that agree on the nine arguments, all float inputs finite, both programs run and end with the same
    result array: the tiled program's is the network's function of its arguments, the plain program's its composed
    term, and the two are equal over real inputs. -/
theorem algebraic : Cert.algebraic_KernelIdeal_ReferenceIdeal := by
  intro m ρ m' ρ' hpre hagree
  refine ⟨fun c => Cert.Bridge.kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.KernelIdeal.KValue.run_value m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8⟩ := hagree c
  rw [e0, e1, e2, e3, e4, e5, e6, e7, e8]
  obtain ⟨r0, r2, r3, r4, -⟩ := Cert.Finite.inputs_real _ _ _ _ _ _ _ _ _ (hpre c)
  exact (Cert.Bridge.kout_eq _ _ _ _ _ _ _ _ _ r0 r2 r3 r4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
